-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v62_0)) (v1 : (c : Dev Cert.KernelIdeal.nD) → Buf (Elt Ideal) ((c.tc : Thread Cert.KernelIdeal.nD Cert.KernelIdeal.τ).loc Cert.KernelIdeal.main_v62_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62_0) = v0 c
          ∧ r.2.mem ((c.tc : Thread Cert.KernelIdeal.nD Cert.KernelIdeal.τ).loc Cert.KernelIdeal.main_v62_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  reducesTo_S_S_d : S_.ReducesTo [] S_

variable [Facts]

def fn_part2 {F : FTy → Type} [FloatOps F] (main_arg8 : FVec F S_ .f32) (main_arg9 : FVec F S128x128 .f32) (main_arg10 : FVec F S128 .f32) (main_v33 : IVec S_ 1) : IVec S_ 1 :=
  let main_v34 : FVec F S_ .f32 := Host.absf main_arg8
  let main_cst_12 : FVec F S_ .f32 := constant S_ .f32 0x7F800000#32
  let main_v35 : IVec S_ 1 := cmpf .olt main_v34 main_cst_12
  let main_c_13 : IVec S_ 1 := constantI S_ 1 1#1
  let main_v36 : IVec S_ 1 := (fun x v => Host.reduce IntOp.andi x v reducesTo_S_S_d h_S_) main_v35 main_c_13
  let main_v37 : IVec S_ 1 := andi main_v33 main_v36
  let main_v38 : FVec F S128x128 .f32 := Host.absf main_arg9
  let main_cst_14 : FVec F S_ .f32 := constant S_ .f32 0x7F800000#32
  let main_v39 : FVec F S128x128 .f32 := broadcastInDim S128x128 ![] bcast_S_S128x128 main_cst_14
  let main_v40 : IVec S128x128 1 := cmpf .olt main_v38 main_v39
  let main_c_15 : IVec S_ 1 := constantI S_ 1 1#1
  let main_v41 : IVec S_ 1 := (fun x v => Host.reduce IntOp.andi x v reducesTo_S128x128_S_d0_1 h_S_) main_v40 main_c_15
  let main_v42 : IVec S_ 1 := andi main_v37 main_v41
  let main_v43 : FVec F S128 .f32 := Host.absf main_arg10
  let main_cst_16 : FVec F S_ .f32 := constant S_ .f32 0x7F800000#32
  let main_v44 : FVec F S128 .f32 := broadcastInDim S128 ![] bcast_S_S128 main_cst_16
  let main_v45 : IVec S128 1 := cmpf .olt main_v43 main_v44
  let main_c_17 : IVec S_ 1 := constantI S_ 1 1#1
  let main_v46 : IVec S_ 1 := (fun x v => Host.reduce IntOp.andi x v reducesTo_S128_S_d0 h_S_) main_v45 main_c_17
  let main_v47 : IVec S_ 1 := andi main_v42 main_v46
  main_v47

def fn_part1 {F : FTy → Type} [FloatOps F] (main_arg5 : FVec F S128 .f32) (main_arg6 : FVec F S128x128 .f32) (main_arg7 : FVec F S128 .f32) (main_arg8 : FVec F S_ .f32) (main_arg9 : FVec F S128x128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1000000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S_ .f32) (main_arg9 : FVec F S128x128 .f32) (main_arg10 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1000000 : Shape := ⟨2, ![2, 1000000]⟩
abbrev S128x128 : Shape := ⟨2, ![128, 128]⟩
abbrev S128 : Shape := ⟨1, ![128]⟩
abbrev S_ : Shape := ⟨0, ![]⟩
abbrev S1x1000000 : Shape := ⟨2, ![1, 1000000]⟩
abbrev S1000000 : Shape := ⟨1, ![1000000]⟩
abbrev S100000 : Shape := ⟨1, ![100000]⟩
abbrev S1100000 : Shape := ⟨1, ![1100000]⟩
abbrev S1100000x1 : Shape := ⟨2, ![1100000, 1]⟩
abbrev S5000x128 : Shape := ⟨2, ![5000, 128]⟩
abbrev S1100000x128 : Shape := ⟨2, ![1100000, 128]⟩
abbrev S1x128 : Shape := ⟨2, ![1, 128]⟩
abbrev S1x1 : Shape := ⟨2, ![1, 1]⟩

abbrev nBuf : Space → Nat
  | .hbm => 88
  | .vmem => 23
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .f32⟩
  | .hbm, ⟨9, _⟩ => ⟨S128x128, .f32⟩
  | .hbm, ⟨10, _⟩ => ⟨S128, .f32⟩
  | .hbm, ⟨11, _⟩ => ⟨S1x1000000, .i32⟩
  | .hbm, ⟨12, _⟩ => ⟨S1000000, .i32⟩
  | .hbm, ⟨13, _⟩ => ⟨S1x1000000, .i32⟩
  | .hbm, ⟨14, _⟩ => ⟨S1000000, .i32⟩
  | .hbm, ⟨15, _⟩ => ⟨S100000, .i32⟩
  | .hbm, ⟨16, _⟩ => ⟨S1100000, .i32⟩
  | .hbm, ⟨17, _⟩ => ⟨S1100000, .i32⟩
  | .hbm, ⟨18, _⟩ => ⟨S_, .f32⟩
  | .hbm, ⟨19, _⟩ => ⟨S1100000, .f32⟩
  | .hbm, ⟨20, _⟩ => ⟨S_, .f32⟩
  | .hbm, ⟨21, _⟩ => ⟨S100000, .f32⟩
  | .hbm, ⟨22, _⟩ => ⟨S1100000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1100000, .i32⟩
  | .hbm, ⟨30, _⟩ => ⟨S1100000, .i1⟩
  | .hbm, ⟨31, _⟩ => ⟨S_, .i32⟩
  | .hbm, ⟨32, _⟩ => ⟨S1100000, .i32⟩
  | .hbm, ⟨33, _⟩ => ⟨S1100000, .i32⟩
  | .hbm, ⟨34, _⟩ => ⟨S1100000, .i32⟩
  | .hbm, ⟨35, _⟩ => ⟨S1100000x1, .i32⟩
  | .hbm, ⟨36, _⟩ => ⟨S1100000, .f32⟩
  | .hbm, ⟨37, _⟩ => ⟨S_, .i32⟩
  | .hbm, ⟨38, _⟩ => ⟨S1100000, .i32⟩
  | .hbm, ⟨39, _⟩ => ⟨S1100000, .i1⟩
  | .hbm, ⟨40, _⟩ => ⟨S_, .i32⟩
  | .hbm, ⟨41, _⟩ => ⟨S1100000, .i32⟩
  | .hbm, ⟨42, _⟩ => ⟨S1100000, .i32⟩
  | .hbm, ⟨43, _⟩ => ⟨S1100000, .i32⟩
  | .hbm, ⟨44, _⟩ => ⟨S1100000x1, .i32⟩
  | .hbm, ⟨45, _⟩ => ⟨S1100000, .f32⟩
  | .hbm, ⟨46, _⟩ => ⟨S1100000, .f32⟩
  | .hbm, ⟨47, _⟩ => ⟨S100000x128, .f32⟩
  | .hbm, ⟨48, _⟩ => ⟨S_, .i32⟩
  | .hbm, ⟨49, _⟩ => ⟨S1100000, .i32⟩
  | .hbm, ⟨50, _⟩ => ⟨S1100000, .i1⟩
  | .hbm, ⟨51, _⟩ => ⟨S_, .i32⟩
  | .hbm, ⟨52, _⟩ => ⟨S1100000, .i32⟩
  | .hbm, ⟨53, _⟩ => ⟨S1100000, .i32⟩
  | .hbm, ⟨54, _⟩ => ⟨S1100000, .i32⟩
  | .hbm, ⟨55, _⟩ => ⟨S1100000x1, .i32⟩
  | .hbm, ⟨56, _⟩ => ⟨S1100000x128, .f32⟩
  | .hbm, ⟨57, _⟩ => ⟨S1100000x1, .f32⟩
  | .hbm, ⟨58, _⟩ => ⟨S1100000x128, .f32⟩
  | .hbm, ⟨59, _⟩ => ⟨S1100000x128, .f32⟩
  | .hbm, ⟨60, _⟩ => ⟨S_, .f32⟩
  | .hbm, ⟨61, _⟩ => ⟨S100000x128, .f32⟩
  | .hbm, ⟨62, _⟩ => ⟨S1100000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S_, .i32⟩
  | .hbm, ⟨67, _⟩ => ⟨S1100000, .i32⟩
  | .hbm, ⟨68, _⟩ => ⟨S1100000, .i1⟩
  | .hbm, ⟨69, _⟩ => ⟨S_, .i32⟩
  | .hbm, ⟨70, _⟩ => ⟨S1100000, .i32⟩
  | .hbm, ⟨71, _⟩ => ⟨S1100000, .i32⟩
  | .hbm, ⟨72, _⟩ => ⟨S1100000, .i32⟩
  | .hbm, ⟨73, _⟩ => ⟨S1100000x1, .i32⟩
  | .hbm, ⟨74, _⟩ => ⟨S1100000x128, .f32⟩
  | .hbm, ⟨75, _⟩ => ⟨S1100000x1, .f32⟩
  | .hbm, ⟨76, _⟩ => ⟨S1100000x128, .f32⟩
  | .hbm, ⟨77, _⟩ => ⟨S1100000x128, .f32⟩
  | .hbm, ⟨78, _⟩ => ⟨S_, .f32⟩
  | .hbm, ⟨79, _⟩ => ⟨S100000x128, .f32⟩
  | .hbm, ⟨80, _⟩ => ⟨S1100000x1, .i32⟩
  | .hbm, ⟨81, _⟩ => ⟨S100000x128, .f32⟩
  | .hbm, ⟨82, _⟩ => ⟨S1x128, .f32⟩
  | .hbm, ⟨83, _⟩ => ⟨S1x128, .f32⟩
  | .hbm, ⟨84, _⟩ => ⟨S1x128, .f32⟩
  | .hbm, ⟨85, _⟩ => ⟨S1x1, .f32⟩
  | .hbm, ⟨86, _⟩ => ⟨S100000x128, .f32⟩
  | .hbm, ⟨87, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S1x1, .f32⟩
  | .local _ .vmem, ⟨17, _⟩ => ⟨S128x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_8 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62_0 : Ref sig .tc := ⟨.hbm, 86, rfl⟩
abbrev main_v62_1 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg7_1 : Ref sig .tc := ⟨.vmem, 20, rfl⟩
abbrev cc2_stg8_0 : Ref sig .tc := ⟨.vmem, 21, rfl⟩
abbrev cc2_stg8_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem7_0 : DmaSem sig := 19
abbrev cc2_sem7_1 : DmaSem sig := 20
abbrev cc2_sem8_0 : DmaSem sig := 21
abbrev cc2_sem8_1 : DmaSem sig := 22

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S5000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S1000000_S100000_S1100000_d0 : Shape.Concatenates [S1000000, S100000] S1100000 0
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1100000x1_S1100000x128_0_1 : S1100000x1.BroadcastsInDim S1100000x128 (![0, 1] : Fin 2 → Fin S1100000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S_S1x1 : S_.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x128 : S1x1.Broadcasts S5000x128
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S5000x128_S128x128_S5000x128_1_0_0_1_n_n_wf : DotDims.WF S5000x128 S128x128 S5000x128 [1] [0] [0] [1] [] []
  gather_S100000x128_S1100000x1_S1100000x128_1_0_n_n_0_1_1128_wf : GatherDims.WF S100000x128 S1100000x1 S1100000x128 [1] [0] [] [0] [] 1 ![1, 128]
  scatter_S100000x128_S1100000x1_S1100000x128_1_0_0_1_wf : ScatterDims.WF S100000x128 S1100000x1 S1100000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S100000x128.size a
  hwx2_7 : ∀ i : grid2.Coords, EltTy.bits .f32 = 32 ∨ (Rect.block (s := S100000x128) S5000x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x128.size a ≤ S100000x128.size a
  hwx2_8 : ∀ i : grid2.Coords, EltTy.bits .f32 = 32 ∨ (Rect.block (s := S100000x128) S5000x128.size (cc2_transform_8 i) (hinb2_8 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1100000x1_S1100000x128_1_0_n_n_0_1_1128 : GatherDims S100000x128 S1100000x1 S1100000x128 where
  offsetDims := [1]
  collapsedSliceDims := [0]
  operandBatchingDims := []
  startIndicesBatchingDims := []
  startIndexMap := [0]
  indexVectorDim := 1
  sliceSizes := ![1, 128]
  wf := gather_S100000x128_S1100000x1_S1100000x128_1_0_n_n_0_1_1128_wf
def scatter_S100000x128_S1100000x1_S1100000x128_1_0_0_1 : ScatterDims S100000x128 S1100000x1 S1100000x128 where
  updateWindowDims := [1]
  insertedWindowDims := [0]
  scatterDimsToOperandDims := [0]
  indexVectorDim := 1
  wf := scatter_S100000x128_S1100000x1_S1100000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg9) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v60) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v62_0) S5000x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v62_1) S5000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S128x128 : Shape := ⟨2, ![128, 128]⟩
abbrev S128 : Shape := ⟨1, ![128]⟩
abbrev S_ : Shape := ⟨0, ![]⟩
abbrev S1x1000000 : Shape := ⟨2, ![1, 1000000]⟩
abbrev S1000000 : Shape := ⟨1, ![1000000]⟩
abbrev S100000 : Shape := ⟨1, ![100000]⟩
abbrev S1100000 : Shape := ⟨1, ![1100000]⟩
abbrev S1100000x1 : Shape := ⟨2, ![1100000, 1]⟩
abbrev S1100000x128 : Shape := ⟨2, ![1100000, 128]⟩
abbrev S1x128 : Shape := ⟨2, ![1, 128]⟩

abbrev nBuf : Space → Nat
  | .hbm => 139
  | .vmem => 0
  | .smem => 0
  | _ => 0

abbrev hbmTy0_0 (i : Nat) : BufTy := match i % 128 with
  | 0 => ⟨S100000x128, .f32⟩
  | 1 => ⟨S2x1000000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S_, .f32⟩
  | 9 => ⟨S128x128, .f32⟩
  | 10 => ⟨S128, .f32⟩
  | 11 => ⟨S1x1000000, .i32⟩
  | 12 => ⟨S1000000, .i32⟩
  | 13 => ⟨S1x1000000, .i32⟩
  | 14 => ⟨S1000000, .i32⟩
  | 15 => ⟨S100000x128, .f32⟩
  | 16 => ⟨S100000, .i32⟩
  | 17 => ⟨S1100000, .i32⟩
  | 18 => ⟨S1100000, .i32⟩
  | 19 => ⟨S_, .f32⟩
  | 20 => ⟨S1100000, .f32⟩
  | 21 => ⟨S_, .f32⟩
  | 22 => ⟨S100000, .f32⟩
  | 23 => ⟨S1100000x1, .i32⟩
  | 24 => ⟨S100000, .f32⟩
  | 25 => ⟨S_, .f32⟩
  | 26 => ⟨S100000, .f32⟩
  | 27 => ⟨S100000, .f32⟩
  | 28 => ⟨S100000, .f32⟩
  | 29 => ⟨S_, .i32⟩
  | 30 => ⟨S1100000, .i32⟩
  | 31 => ⟨S1100000, .i1⟩
  | 32 => ⟨S_, .i32⟩
  | 33 => ⟨S1100000, .i32⟩
  | 34 => ⟨S1100000, .i32⟩
  | 35 => ⟨S1100000, .i32⟩
  | 36 => ⟨S1100000x1, .i32⟩
  | 37 => ⟨S1100000, .f32⟩
  | 38 => ⟨S_, .i32⟩
  | 39 => ⟨S1100000, .i32⟩
  | 40 => ⟨S1100000, .i1⟩
  | 41 => ⟨S_, .i32⟩
  | 42 => ⟨S1100000, .i32⟩
  | 43 => ⟨S1100000, .i32⟩
  | 44 => ⟨S1100000, .i32⟩
  | 45 => ⟨S1100000x1, .i32⟩
  | 46 => ⟨S1100000, .f32⟩
  | 47 => ⟨S1100000, .f32⟩
  | 48 => ⟨S_, .i32⟩
  | 49 => ⟨S1100000, .i32⟩
  | 50 => ⟨S1100000, .i1⟩
  | 51 => ⟨S_, .i32⟩
  | 52 => ⟨S1100000, .i32⟩
  | 53 => ⟨S1100000, .i32⟩
  | 54 => ⟨S1100000, .i32⟩
  | 55 => ⟨S1100000x1, .i32⟩
  | 56 => ⟨S1100000x128, .f32⟩
  | 57 => ⟨S1100000x1, .f32⟩
  | 58 => ⟨S1100000x128, .f32⟩
  | 59 => ⟨S1100000x128, .f32⟩
  | 60 => ⟨S_, .f32⟩
  | 61 => ⟨S100000x128, .f32⟩
  | 62 => ⟨S1100000x1, .i32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S100000x128, .f32⟩
  | 71 => ⟨S100000, .i32⟩
  | 72 => ⟨S1100000, .i32⟩
  | 73 => ⟨S1100000, .i32⟩
  | 74 => ⟨S_, .f32⟩
  | 75 => ⟨S1100000, .f32⟩
  | 76 => ⟨S_, .f32⟩
  | 77 => ⟨S100000, .f32⟩
  | 78 => ⟨S1100000x1, .i32⟩
  | 79 => ⟨S100000, .f32⟩
  | 80 => ⟨S_, .f32⟩
  | 81 => ⟨S100000, .f32⟩
  | 82 => ⟨S100000, .f32⟩
  | 83 => ⟨S100000, .f32⟩
  | 84 => ⟨S_, .i32⟩
  | 85 => ⟨S1100000, .i32⟩
  | 86 => ⟨S1100000, .i1⟩
  | 87 => ⟨S_, .i32⟩
  | 88 => ⟨S1100000, .i32⟩
  | 89 => ⟨S1100000, .i32⟩
  | 90 => ⟨S1100000, .i32⟩
  | 91 => ⟨S1100000x1, .i32⟩
  | 92 => ⟨S1100000, .f32⟩
  | 93 => ⟨S_, .i32⟩
  | 94 => ⟨S1100000, .i32⟩
  | 95 => ⟨S1100000, .i1⟩
  | 96 => ⟨S_, .i32⟩
  | 97 => ⟨S1100000, .i32⟩
  | 98 => ⟨S1100000, .i32⟩
  | 99 => ⟨S1100000, .i32⟩
  | 100 => ⟨S1100000x1, .i32⟩
  | 101 => ⟨S1100000, .f32⟩
  | 102 => ⟨S1100000, .f32⟩
  | 103 => ⟨S_, .i32⟩
  | 104 => ⟨S1100000, .i32⟩
  | 105 => ⟨S1100000, .i1⟩
  | 106 => ⟨S_, .i32⟩
  | 107 => ⟨S1100000, .i32⟩
  | 108 => ⟨S1100000, .i32⟩
  | 109 => ⟨S1100000, .i32⟩
  | 110 => ⟨S1100000x1, .i32⟩
  | 111 => ⟨S1100000x128, .f32⟩
  | 112 => ⟨S1100000x1, .f32⟩
  | 113 => ⟨S1100000x128, .f32⟩
  | 114 => ⟨S1100000x128, .f32⟩
  | 115 => ⟨S_, .f32⟩
  | 116 => ⟨S100000x128, .f32⟩
  | 117 => ⟨S1100000x1, .i32⟩
  | 118 => ⟨S100000x128, .f32⟩
  | 119 => ⟨S1x128, .f32⟩
  | 120 => ⟨S100000x128, .f32⟩
  | 121 => ⟨S100000x128, .f32⟩
  | 122 => ⟨S_, .f32⟩
  | 123 => ⟨S100000x128, .f32⟩
  | 124 => ⟨S100000x128, .f32⟩
  | 125 => ⟨S100000x128, .f32⟩
  | 126 => ⟨S1x128, .f32⟩
  | 127 => ⟨S100000x128, .f32⟩
  | _ => ⟨S100000x128, .f32⟩

abbrev hbmTy0_1 (i : Nat) : BufTy := match i % 128 with
  | 0 => ⟨S100000x128, .f32⟩
  | 1 => ⟨S_, .f32⟩
  | 2 => ⟨S100000x128, .f32⟩
  | 3 => ⟨S100000x128, .i1⟩
  | 4 => ⟨S100000x128, .f32⟩
  | 5 => ⟨S100000x128, .f32⟩
  | 6 => ⟨S100000x128, .f32⟩
  | 7 => ⟨S100000x128, .f32⟩
  | 8 => ⟨S1x128, .f32⟩
  | 9 => ⟨S100000x128, .f32⟩
  | 10 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call0_cst : Ref sig .tc := ⟨.hbm, 67, rfl⟩
abbrev main_call0_v0 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_8 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_11 : Ref sig .tc := ⟨.hbm, 84, rfl⟩
abbrev main_v58 : Ref sig .tc := ⟨.hbm, 85, rfl⟩
abbrev main_v59 : Ref sig .tc := ⟨.hbm, 86, rfl⟩
abbrev main_c_12 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_13 : Ref sig .tc := ⟨.hbm, 93, rfl⟩
abbrev main_v65 : Ref sig .tc := ⟨.hbm, 94, rfl⟩
abbrev main_v66 : Ref sig .tc := ⟨.hbm, 95, rfl⟩
abbrev main_c_14 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_c_15 : Ref sig .tc := ⟨.hbm, 103, rfl⟩
abbrev main_v73 : Ref sig .tc := ⟨.hbm, 104, rfl⟩
abbrev main_v74 : Ref sig .tc := ⟨.hbm, 105, rfl⟩
abbrev main_c_16 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_17 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_call1_cst : Ref sig .tc := ⟨.hbm, 122, rfl⟩
abbrev main_call1_v0 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_18 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S1000000_S100000_S1100000_d0 : Shape.Concatenates [S1000000, S100000] S1100000 0
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x128_0_1 : S1100000x1.BroadcastsInDim S1100000x128 (![0, 1] : Fin 2 → Fin S1100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  gather_S100000x128_S1100000x1_S1100000x128_1_0_n_n_0_1_1128_wf : GatherDims.WF S100000x128 S1100000x1 S1100000x128 [1] [0] [] [0] [] 1 ![1, 128]
  scatter_S100000x128_S1100000x1_S1100000x128_1_0_0_1_wf : ScatterDims.WF S100000x128 S1100000x1 S1100000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def gather_S100000x128_S1100000x1_S1100000x128_1_0_n_n_0_1_1128 : GatherDims S100000x128 S1100000x1 S1100000x128 where
  offsetDims := [1]
  collapsedSliceDims := [0]
  operandBatchingDims := []
  startIndicesBatchingDims := []
  startIndexMap := [0]
  indexVectorDim := 1
  sliceSizes := ![1, 128]
  wf := gather_S100000x128_S1100000x1_S1100000x128_1_0_n_n_0_1_1128_wf
def scatter_S100000x128_S1100000x1_S1100000x128_1_0_0_1 : ScatterDims S100000x128 S1100000x1 S1100000x128 where
  updateWindowDims := [1]
  insertedWindowDims := [0]
  scatterDimsToOperandDims := [0]
  indexVectorDim := 1
  wf := scatter_S100000x128_S1100000x1_S1100000x128_1_0_0_1_wf

class Facts : Prop extends Facts₀ where

variable [Facts]
-- ==== Proof.LibPlainDot.lean ====
/-
  A plain matrix product's contraction sum, for any sizes.  For dimension numbers that contract the left operand's
  second axis with the right operand's first, keep the left operand's first axis and the right operand's second, and
  have no batch axes, the sum over the contraction index of the operands' products at output index (p, q) is
  the sum over k of L (p, k) * R (k, q).  With it, a matmul into the zero accumulator and a host dot_general, read at
  (p, q) on the extended reals, are that sum.
-/
import Idealize.ShloMosaic.PureOps.Ideal.Laws
import Idealize.ShloMosaic.Lib.ValueIdx

noncomputable section

open scoped BigOperators

namespace Cert.Bridge

open Idealize.ShloMosaic Idealize.ShloMosaic.ValueIdx

/-- The contraction shape of plain dimension numbers has one axis, of extent K; the operand indices at output index
    (p, q) and the contraction index whose one coordinate is k are (p, k) and (k, q). -/
theorem plain_idx {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) :
    ∃ (hr : d.contr.rank = 1) (hs : d.contr.size ⟨0, by omega⟩ = K), ∀ (p : Fin A) (q : Fin B) (k : Fin K),
      d.lhsIdx (ix2 p q) ((contrEquiv1 d K hr hs).symm k) = ix2 p k ∧
      d.rhsIdx (ix2 p q) ((contrEquiv1 d K hr hs).symm k) = ix2 k q := by
  obtain ⟨lc, rc, ln, rn, lb, rb, wf⟩ := d
  simp only at hlc hrc hln hrn hlb hrb
  subst hlc hrc hln hrn hlb hrb
  refine ⟨rfl, rfl, fun p q k => ⟨?_, ?_⟩⟩
  · funext a
    match a with
    | ⟨0, _⟩ => exact Fin.ext rfl
    | ⟨1, _⟩ => exact Fin.ext rfl
  · funext a
    match a with
    | ⟨0, _⟩ => exact Fin.ext rfl
    | ⟨1, _⟩ => exact Fin.ext rfl

/-- THE CONTRACTION SUM of a plain product at (p, q): the sum over k of L (p, k) * R (k, q). -/
theorem plain_sum {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (L : (⟨2, ![A, K]⟩ : Shape).Idx → EReal) (R : (⟨2, ![K, B]⟩ : Shape).Idx → EReal) (p : Fin A) (q : Fin B) :
    ∑ κ : d.contr.Idx, L (d.lhsIdx (ix2 p q) κ) * R (d.rhsIdx (ix2 p q) κ) = ∑ k : Fin K, L (ix2 p k) * R (ix2 k q) := by
  obtain ⟨hr, hs, h⟩ := plain_idx d hlc hrc hln hrn hlb hrb
  rw [← Equiv.sum_comp (contrEquiv1 d K hr hs).symm]
  exact Finset.sum_congr rfl fun k _ => by rw [(h p q k).1, (h p q k).2]

/-- A matmul of plain dimension numbers into the zero accumulator, read at (p, q) on the extended reals. -/
theorem matmul_zero_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q)
      = ∑ k : Fin K, lhs (ix2 p k) * rhs (ix2 k q) :=
  (Ideal.matmul_constant_zero_apply d prec lhs rhs (ix2 p q)).trans (plain_sum d hlc hrc hln hrn hlb hrb lhs rhs p q)

/-- A host dot_general of plain dimension numbers, read at (p, q) on the extended reals. -/
theorem dotGeneral_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ φ₁)
    (rhs : FVec Ideal ⟨2, ![K, B]⟩ φ₂) (p : Fin A) (q : Fin B) :
    FloatOps.dotGeneral d prec sched lhs rhs (ix2 p q) = ∑ k : Fin K, lhs (ix2 p k) * rhs (ix2 k q) :=
  (Ideal.dotGeneral_apply d prec sched lhs rhs (ix2 p q)).trans (plain_sum d hlc hrc hln hrn hlb hrb lhs rhs p q)

end Cert.Bridge

end
-- ==== Proof.LibRank2Layout.lean ====
/-
  Rank-2 layout operations read at an index given by its two coordinates.

  A column slice `x[:, c:c+1]` of an [a, n] array read at (p, 0) is x at (p, c); a row slice `x[c:c+1, :]` of an
  [n, b] array read at (0, q) is x at (c, q); a column [a, 1] broadcast along lanes to [a, b] reads, at (p, q), the
  column at (p, 0); a row [1, b] broadcast along sublanes to [a, b] reads, at (p, q), the row at (0, q).  Each is one
  instance of the library's read-at-an-index lemma for the operation, with the coordinate arithmetic discharged once
  for all sizes.  Last, two shape casts of one array read at indices with equal row-major positions are equal.
-/
import Idealize.ShloMosaic.Lib.ValueIdx
import Idealize.ShloMosaic.Lib.Pipeline.Value

namespace Idealize.ShloMosaic.Rank2

open Idealize.ShloMosaic Idealize.ShloMosaic.ValueIdx

variable {α : Type}

/-- A one-column slice at column offset `c` fits only if `c` is a column of the array. -/
theorem col_lt {a n c : Nat} (h : (⟨2, ![a, n]⟩ : Shape).Slices ![0, c] ⟨2, ![a, 1]⟩) : c < n := by
  have h1 := h.2 (1 : Fin 2)
  change c + 1 ≤ n at h1
  omega

/-- A one-row slice at row offset `c` fits only if `c` is a row of the array. -/
theorem row_lt {n b c : Nat} (h : (⟨2, ![n, b]⟩ : Shape).Slices ![c, 0] ⟨2, ![1, b]⟩) : c < n := by
  have h0 := h.2 (0 : Fin 2)
  change c + 1 ≤ n at h0
  omega

/-- The column slice `x[:, c:c+1]` at (p, 0) is `x` at (p, c). -/
theorem sliceCol_apply {a n c : Nat} (x : (⟨2, ![a, n]⟩ : Shape).Idx → α)
    (h : (⟨2, ![a, n]⟩ : Shape).Slices ![0, c] ⟨2, ![a, 1]⟩) (p : Fin a) (z : Fin 1) :
    extractStridedSlice (⟨2, ![a, 1]⟩ : Shape) ![0, c] x h (ix2 p z) = x (ix2 p (⟨c, col_lt h⟩ : Fin n)) :=
  extractStridedSlice_apply ![0, c] x h (ix2 p z) (ix2 p (⟨c, col_lt h⟩ : Fin n)) (fun d => match d with
    | ⟨0, _⟩ => by show p.val = 0 + p.val; omega
    | ⟨1, _⟩ => by show c = c + z.val; have := z.isLt; omega)

/-- The row slice `x[c:c+1, :]` at (0, q) is `x` at (c, q). -/
theorem sliceRow_apply {n b c : Nat} (x : (⟨2, ![n, b]⟩ : Shape).Idx → α)
    (h : (⟨2, ![n, b]⟩ : Shape).Slices ![c, 0] ⟨2, ![1, b]⟩) (z : Fin 1) (q : Fin b) :
    extractStridedSlice (⟨2, ![1, b]⟩ : Shape) ![c, 0] x h (ix2 z q) = x (ix2 (⟨c, row_lt h⟩ : Fin n) q) :=
  extractStridedSlice_apply ![c, 0] x h (ix2 z q) (ix2 (⟨c, row_lt h⟩ : Fin n) q) (fun d => match d with
    | ⟨0, _⟩ => by show c = c + z.val; have := z.isLt; omega
    | ⟨1, _⟩ => by show q.val = 0 + q.val; omega)

/-- A column broadcast along the second axis: entry (p, q) is the column's entry (p, 0). -/
theorem bcastCol_apply {a b : Nat} (v : (⟨2, ![a, 1]⟩ : Shape).Idx → α)
    (h : (⟨2, ![a, 1]⟩ : Shape).Broadcasts ⟨2, ![a, b]⟩) (p : Fin a) (q : Fin b) :
    broadcastTo (⟨2, ![a, b]⟩ : Shape) v h (ix2 p q) = v (ix2 p (0 : Fin 1)) :=
  broadcastTo_apply v h (ix2 p q) (ix2 p (0 : Fin 1)) (fun d => match d with
    | ⟨0, _⟩ => by
        show p.val = if a = 1 then 0 else p.val
        by_cases ha : a = 1
        · rw [if_pos ha]; have := p.isLt; omega
        · rw [if_neg ha]
    | ⟨1, _⟩ => by show 0 = if (1 : Nat) = 1 then 0 else q.val; rw [if_pos rfl])

/-- A row broadcast along the first axis: entry (p, q) is the row's entry (0, q). -/
theorem bcastRow_apply {a b : Nat} (v : (⟨2, ![1, b]⟩ : Shape).Idx → α)
    (h : (⟨2, ![1, b]⟩ : Shape).Broadcasts ⟨2, ![a, b]⟩) (p : Fin a) (q : Fin b) :
    broadcastTo (⟨2, ![a, b]⟩ : Shape) v h (ix2 p q) = v (ix2 (0 : Fin 1) q) :=
  broadcastTo_apply v h (ix2 p q) (ix2 (0 : Fin 1) q) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb])

end Idealize.ShloMosaic.Rank2

namespace Idealize.ShloMosaic

/-- Two shape casts of one array agree at indices with the same row-major position. -/
theorem shapeCast_eq_shapeCast {α : Type} {s t u : Shape} (x : s.Idx → α) (h : s.ShapeCasts t) (h' : s.ShapeCasts u)
    (j : t.Idx) (k : u.Idx) (e : (t.rowMajor j).val = (u.rowMajor k).val) :
    shapeCast t x h j = shapeCast u x h' k := by
  unfold shapeCast
  exact congrArg x (Shape.reshapeEquiv_eq_of_rowMajor h ((Shape.rowMajor_reshapeEquiv h' k).trans e.symm))

end Idealize.ShloMosaic
-- ==== Proof.LibBroadcastInDim2.lean ====
/-
  The host's `broadcast_in_dim` between ranks 1 and 2, read at an index given by its coordinates, for any sizes:
  a vector `[a]` as a column `[a, 1]` (dims = [0]) and as a row `[1, b]` (dims = [1]); a column `[a, 1]` along the second axis
  to `[a, b]` and a row `[1, b]` along the first axis to `[a, b]` (dims = [0, 1]).  Each is one instance of the library's
  read-at-an-index lemma for the operation, the coordinate arithmetic discharged once for all sizes.
-/
import Idealize.ShloMosaic.Lib.ValueIdx
import Idealize.ShloMosaic.Lib.Pipeline.Value

namespace Idealize.ShloMosaic.BroadcastInDim2

open Idealize.ShloMosaic Idealize.ShloMosaic.ValueIdx

variable {α : Type}

/-- A vector as a column: entry (p, 0) is the vector's entry p. -/
theorem vecToCol_apply {a : Nat} (v : (⟨1, ![a]⟩ : Shape).Idx → α)
    (h : (⟨1, ![a]⟩ : Shape).BroadcastsInDim ⟨2, ![a, 1]⟩ (![0] : Fin 1 → Fin 2)) (p : Fin a) (z : Fin 1) :
    broadcastInDim (⟨2, ![a, 1]⟩ : Shape) (![0] : Fin 1 → Fin 2) h v (ix2 p z) = v (ix1 p) :=
  broadcastInDim_apply (![0] : Fin 1 → Fin 2) h v (ix2 p z) (ix1 p) (fun d => match d with
    | ⟨0, _⟩ => by
        show p.val = if a = 1 then 0 else p.val
        by_cases ha : a = 1
        · rw [if_pos ha]; have := p.isLt; omega
        · rw [if_neg ha])

/-- A vector as a row: entry (0, q) is the vector's entry q. -/
theorem vecToRow_apply {b : Nat} (v : (⟨1, ![b]⟩ : Shape).Idx → α)
    (h : (⟨1, ![b]⟩ : Shape).BroadcastsInDim ⟨2, ![1, b]⟩ (![1] : Fin 1 → Fin 2)) (z : Fin 1) (q : Fin b) :
    broadcastInDim (⟨2, ![1, b]⟩ : Shape) (![1] : Fin 1 → Fin 2) h v (ix2 z q) = v (ix1 q) :=
  broadcastInDim_apply (![1] : Fin 1 → Fin 2) h v (ix2 z q) (ix1 q) (fun d => match d with
    | ⟨0, _⟩ => by
        show q.val = if b = 1 then 0 else q.val
        by_cases hb : b = 1
        · rw [if_pos hb]; have := q.isLt; omega
        · rw [if_neg hb])

/-- A column along the second axis: entry (p, q) is the column's entry (p, 0). -/
theorem colToMat_apply {a b : Nat} (v : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim (⟨2, ![a, b]⟩ : Shape) (![0, 1] : Fin 2 → Fin 2) h v (ix2 p q) = v (ix2 p (0 : Fin 1)) :=
  broadcastInDim_apply (![0, 1] : Fin 2 → Fin 2) h v (ix2 p q) (ix2 p (0 : Fin 1)) (fun d => match d with
    | ⟨0, _⟩ => by
        show p.val = if a = 1 then 0 else p.val
        by_cases ha : a = 1
        · rw [if_pos ha]; have := p.isLt; omega
        · rw [if_neg ha]
    | ⟨1, _⟩ => by show 0 = if (1 : Nat) = 1 then 0 else q.val; rw [if_pos rfl])

/-- A row along the first axis: entry (p, q) is the row's entry (0, q). -/
theorem rowToMat_apply {a b : Nat} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim (⟨2, ![a, b]⟩ : Shape) (![0, 1] : Fin 2 → Fin 2) h v (ix2 p q) = v (ix2 (0 : Fin 1) q) :=
  broadcastInDim_apply (![0, 1] : Fin 2 → Fin 2) h v (ix2 p q) (ix2 (0 : Fin 1) q) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb])

end Idealize.ShloMosaic.BroadcastInDim2
-- ==== Proof.DenseOps.lean ====
/-
  The dense layers of a two-layer graph convolution network, entry by entry, on the extended reals, for a matrix of
  ANY number of rows with 128 columns.  A row tile of a matrix and the whole matrix are the same functions at
  different row counts, so each statement below serves both a tile computed in one grid step and the whole array
  computed by one host operation:

    * a product with a 128 x 128 weight matrix, as a matmul into the zero accumulator (operands first rounded to a
      narrower float format, which changes nothing on the extended reals) and as a host dot_general: entry (p, q)
      is the sum over k of X (p, k) * W (k, q);
    * a bias row [1, 128] added to every row: as a vector broadcast of the (re-cast) row and as a host
      broadcast_in_dim, entry (p, q) of the broadcast is b (0, q);
    * a [1, 1] scalar spread over the matrix, and a host scalar constant spread over the matrix.
-/
import Idealize.ShloMosaic.PureOps.Ideal
import Idealize.ShloMosaic.PureOps.Ideal.Laws
import Idealize.ShloMosaic.Lib.ValueIdx
import Idealize.ShloMosaic.Lib.Pipeline.Value
import proofs.«144005_j54065048322391_1_alg».proof.Proof.LibPlainDot
import proofs.«144005_j54065048322391_1_alg».proof.Proof.LibRank2Layout
import proofs.«144005_j54065048322391_1_alg».proof.Proof.LibBroadcastInDim2

noncomputable section

open scoped BigOperators

namespace Cert.Gcn

open Idealize.ShloMosaic Idealize.ShloMosaic.ValueIdx

variable {A : Nat}

/-- The shape of a matrix of `A` rows and 128 columns. -/
abbrev Mat (A : Nat) : Shape := ⟨2, ![A, 128]⟩
/-- The shape of a 128 x 128 weight matrix. -/
abbrev Wt : Shape := ⟨2, ![128, 128]⟩
/-- The shape of a bias row. -/
abbrev Row : Shape := ⟨2, ![1, 128]⟩
/-- The shape of a [1, 1] scalar. -/
abbrev One : Shape := ⟨2, ![1, 1]⟩

/-- Rounding to a narrower float format is the identity on the extended reals. -/
theorem truncf_id {s : Shape} {φ ψ : FTy} (x : FVec Ideal s φ) (h : ψ.bits < φ.bits) : (truncf ψ x h : FVec Ideal s ψ) = x := rfl

/-- THE PRODUCT IN A TILE: a matmul into the zero accumulator of operands rounded to a narrower format. -/
theorem matmul_entry {φ ψ₁ ψ₂ : FTy} (d : DotDims (Mat A) Wt (Mat A))
    (hlc : d.lhsContracting = [1]) (hrc : d.rhsContracting = [0]) (hln : d.lhsNonContracting = [0])
    (hrn : d.rhsNonContracting = [1]) (hlb : d.lhsBatch = []) (hrb : d.rhsBatch = [])
    (X : FVec Ideal (Mat A) φ) (W : FVec Ideal Wt φ) (h₁ : ψ₁.bits < φ.bits) (h₂ : ψ₂.bits < φ.bits)
    (p : Fin A) (q : Fin 128) :
    matmul d none (truncf ψ₁ X h₁) (truncf ψ₂ W h₂) (constant (Mat A) .f32 0x00000000#32) (ix2 p q)
      = ∑ k : Fin 128, X (ix2 p k) * W (ix2 k q) :=
  Cert.Bridge.matmul_zero_plain d hlc hrc hln hrn hlb hrb none (truncf ψ₁ X h₁) (truncf ψ₂ W h₂) p q

/-- THE PRODUCT ON THE HOST: a dot_general. -/
theorem dotGeneral_entry {φ : FTy} (d : DotDims (Mat A) Wt (Mat A))
    (hlc : d.lhsContracting = [1]) (hrc : d.rhsContracting = [0]) (hln : d.lhsNonContracting = [0])
    (hrn : d.rhsNonContracting = [1]) (hlb : d.lhsBatch = []) (hrb : d.rhsBatch = [])
    (X : FVec Ideal (Mat A) φ) (W : FVec Ideal Wt φ) (p : Fin A) (q : Fin 128) :
    Host.dotGeneral d none X W (ix2 p q) = ∑ k : Fin 128, X (ix2 p k) * W (ix2 k q) := by
  simp only [Host.dotGeneral]
  exact Cert.Bridge.dotGeneral_plain d hlc hrc hln hrn hlb hrb none _ X W p q

/-- A bias row spread over a tile: the row, re-cast to its own shape, broadcast along the rows. -/
theorem rowSpread_entry {α : Type} (b : Row.Idx → α) (hc : Row.ShapeCasts Row) (hb : Row.Broadcasts (Mat A))
    (p : Fin A) (q : Fin 128) :
    broadcastTo (Mat A) (shapeCast Row b hc) hb (ix2 p q) = b (ix2 (0 : Fin 1) q) := by
  rw [shapeCast_self]
  exact Rank2.bcastRow_apply b hb p q

/-- A bias row spread over the whole matrix by the host's broadcast_in_dim along both axes. -/
theorem rowSpreadHost_entry {α : Type} (b : Row.Idx → α) (hb : Row.BroadcastsInDim (Mat A) (![0, 1] : Fin 2 → Fin 2))
    (p : Fin A) (q : Fin 128) :
    broadcastInDim (Mat A) (![0, 1] : Fin 2 → Fin 2) hb b (ix2 p q) = b (ix2 (0 : Fin 1) q) :=
  BroadcastInDim2.rowToMat_apply b hb p q

/-- A [1, 1] scalar, re-cast to its own shape, spread over a tile. -/
theorem oneSpread_entry {α : Type} (a : One.Idx → α) (hc : One.ShapeCasts One) (hb : One.Broadcasts (Mat A))
    (p : Fin A) (q : Fin 128) :
    broadcastTo (Mat A) (shapeCast One a hc) hb (ix2 p q) = a (ix2 (0 : Fin 1) (0 : Fin 1)) := by
  rw [shapeCast_self]
  exact broadcastTo_apply a hb (ix2 p q) (ix2 (0 : Fin 1) (0 : Fin 1)) (fun d => match d with
    | ⟨0, _⟩ => by show 0 = if (1 : Nat) = 1 then 0 else p.val; rw [if_pos rfl]
    | ⟨1, _⟩ => by show 0 = if (1 : Nat) = 1 then 0 else q.val; rw [if_pos rfl])

/-- A host scalar spread over any shape by broadcast_in_dim along no axis: every entry is the scalar. -/
theorem scalarSpreadHost_entry {α : Type} {s : Shape} (x : (⟨0, ![]⟩ : Shape).Idx → α)
    (hb : (⟨0, ![]⟩ : Shape).BroadcastsInDim s (![] : Fin 0 → Fin s.rank)) (j : s.Idx) :
    broadcastInDim s (![] : Fin 0 → Fin s.rank) hb x j = x ix0 :=
  broadcastInDim_apply _ hb x j ix0 (fun a => a.elim0)

end Cert.Gcn

end
-- ==== Proof.Layers.lean ====
/-
  The layers of the network as functions of whole arrays, spelt with the host operations the reference program
  applies — so that the reference's stages are these functions by unfolding — and read entry by entry:

    zeros            the all-zero matrix (a scalar constant spread over the matrix);
    relu M           max (M, zeros), entrywise;
    addRow M b       M plus the bias row b spread over every row;
    dense M W        the matrix product M · W (a dot_general contracting M's columns with W's rows);
    prelu a H        where H > 0 take H, elsewhere a · H, the scalar a spread over the matrix;
    rowOf b          a bias vector as a [1, 128] row;
    aggregate s d w H   the normalised message passing of one graph convolution: gather the rows H[s] (a negative
                     source number first wrapped by the number of nodes), scale row e by the edge weight w e, and add
                     the rows into a zero matrix at the destinations d.  The gather and the scatter-add are the host's
                     own operations on both sides of the certificate and are never opened.
-/
import proofs.«144005_j54065048322391_1_alg».proof.Proof.Gen.ReferenceIdeal
import proofs.«144005_j54065048322391_1_alg».proof.Proof.DenseOps

noncomputable section

open scoped BigOperators

namespace Cert.Gcn

open Idealize.ShloMosaic Idealize.ShloMosaic.ValueIdx
open Cert.ReferenceIdeal Cert.ReferenceIdeal.Facts₀

/-- The zero of the network's arithmetic, as the programs write it: the float pattern of 0.0. -/
abbrev zero : EReal := Ideal.ofBits .f32 0x00000000#32

/-- max (x, 0) of one entry. -/
def reluS (x : EReal) : EReal := max x zero

/-- The parametric rectifier of one entry: h where h > 0, a · h elsewhere. -/
def preluS (a h : EReal) : EReal := Scalar.select (FloatOps.cmpf (F := Ideal) (φ := .f32) .ogt h zero) h (a * h)

/-- A matrix of 100000 rows and 128 columns of extended reals. -/
abbrev Arr : Type := FVec Ideal S100000x128 .f32

def zeros : Arr := broadcastInDim S100000x128 ![] bcast_S_S100000x128 (constant (F := Ideal) S_ .f32 0x00000000#32)

def relu (M : Arr) : Arr := maximumf M zeros

def addRow (M : Arr) (b : FVec Ideal S1x128 .f32) : Arr :=
  addf M (broadcastInDim S100000x128 ![0, 1] bcast_S1x128_S100000x128_0_1 b)

def dense (M : Arr) (W : FVec Ideal S128x128 .f32) : Arr :=
  Host.dotGeneral dot_S100000x128_S128x128_S100000x128_1_0_0_1_n_n none M W

def prelu (a : FVec Ideal S_ .f32) (H : Arr) : Arr :=
  select (cmpf .ogt H zeros) H (mulf (broadcastInDim S100000x128 ![] bcast_S_S100000x128 a) H)

def rowOf (b : FVec Ideal S128 .f32) : FVec Ideal S1x128 .f32 :=
  broadcastInDim S1x128 ![1] bcast_S128_S1x128_1 b

/-- The edges' source numbers as a column of gather indices, a negative number wrapped by the number of nodes. -/
def gatherIdx (s : IVec S1100000 32) : IVec S1100000x1 32 :=
  broadcastInDim S1100000x1 ![0] bcast_S1100000_S1100000x1_0
    (select (cmpi .slt s (broadcastInDim S1100000 ![] bcast_S_S1100000 (constantI S_ 32 0#32)))
      (addi s (broadcastInDim S1100000 ![] bcast_S_S1100000 (constantI S_ 32 100000#32))) s)

def aggregate (s d : IVec S1100000 32) (w : FVec Ideal S1100000 .f32) (H : Arr) : Arr :=
  Host.scatterAdd scatter_S100000x128_S1100000x1_S1100000x128_1_0_0_1 zeros
    (broadcastInDim S1100000x1 ![0] bcast_S1100000_S1100000x1_0 d)
    (mulf (Host.gather gather_S100000x128_S1100000x1_S1100000x128_1_0_n_n_0_1_1128 H (gatherIdx s))
      (broadcastInDim S1100000x128 ![0, 1] bcast_S1100000x1_S1100000x128_0_1
        (broadcastInDim S1100000x1 ![0] bcast_S1100000_S1100000x1_0 w)))

theorem zeros_entry (j : S100000x128.Idx) : zeros j = zero :=
  scalarSpreadHost_entry _ bcast_S_S100000x128 j

theorem relu_entry (M : Arr) (p : Fin 100000) (q : Fin 128) : relu M (ix2 p q) = reluS (M (ix2 p q)) := by
  unfold relu reluS
  rw [maximumf_apply, zeros_entry]

theorem addRow_entry (M : Arr) (b : FVec Ideal S1x128 .f32) (p : Fin 100000) (q : Fin 128) :
    addRow M b (ix2 p q) = M (ix2 p q) + b (ix2 (0 : Fin 1) q) := by
  unfold addRow
  rw [addf_apply, rowSpreadHost_entry (A := 100000) b bcast_S1x128_S100000x128_0_1 p q]

theorem dense_entry (M : Arr) (W : FVec Ideal S128x128 .f32) (p : Fin 100000) (q : Fin 128) :
    dense M W (ix2 p q) = ∑ k : Fin 128, M (ix2 p k) * W (ix2 k q) :=
  dotGeneral_entry (A := 100000) dot_S100000x128_S128x128_S100000x128_1_0_0_1_n_n rfl rfl rfl rfl rfl rfl M W p q

theorem prelu_entry (a : FVec Ideal S_ .f32) (H : Arr) (p : Fin 100000) (q : Fin 128) :
    prelu a H (ix2 p q) = preluS (a ix0) (H (ix2 p q)) := by
  unfold prelu preluS
  rw [select_apply, cmpf_apply, mulf_apply, zeros_entry, scalarSpreadHost_entry a bcast_S_S100000x128]

end Cert.Gcn

end
-- ==== Proof.LibReshapeVec.lean ====
/-
  A vector reshaped to a one-column or a one-row matrix is the vector broadcast in dimension 0, respectively 1, for
  any length: `reshape [a] → [a, 1]` against `broadcast_in_dim dims = [0]`, and `reshape [b] → [1, b]` against
  `broadcast_in_dim dims = [1]`.  Entry (p, 0) of either column is entry p of the vector, entry (0, q) of either row
  is entry q: the reshape by the row-major position (p·1 + 0 = p, 0·b + q = q), the broadcast by its index map.
-/
import Idealize.ShloMosaic.Lib.ValueIdx
import Idealize.ShloMosaic.Lib.Pipeline.Value
import proofs.«144005_j54065048322391_1_alg».proof.Proof.LibBroadcastInDim2

namespace Idealize.ShloMosaic.ReshapeVec

open Idealize.ShloMosaic Idealize.ShloMosaic.ValueIdx

variable {α : Type}

/-- A vector reshaped to a column is the vector broadcast along dimension 0 of the column. -/
theorem reshapeCol_eq_broadcastInDim {a : Nat} (v : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast (⟨2, ![a, 1]⟩ : Shape) v h = broadcastInDim (⟨2, ![a, 1]⟩ : Shape) (![0] : Fin 1 → Fin 2) h' v := by
  funext i
  obtain ⟨p, z, rfl⟩ : ∃ (p : Fin a) (z : Fin 1), i = ix2 p z := ⟨i 0, i 1, eq_ix2 i⟩
  rw [BroadcastInDim2.vecToCol_apply]
  obtain rfl : z = 0 := Fin.ext (by have := z.isLt; omega)
  exact shapeCast_apply v h (ix2 p (0 : Fin 1)) (ix1 p) (by
    rw [Shape.rowMajor_val_two, Shape.rowMajor_val_one]; show p.val = p.val * 1 + 0; omega)

/-- A vector reshaped to a row is the vector broadcast along dimension 1 of the row. -/
theorem reshapeRow_eq_broadcastInDim {b : Nat} (v : (⟨1, ![b]⟩ : Shape).Idx → α)
    (h : (⟨1, ![b]⟩ : Shape).ShapeCasts ⟨2, ![1, b]⟩)
    (h' : (⟨1, ![b]⟩ : Shape).BroadcastsInDim ⟨2, ![1, b]⟩ (![1] : Fin 1 → Fin 2)) :
    shapeCast (⟨2, ![1, b]⟩ : Shape) v h = broadcastInDim (⟨2, ![1, b]⟩ : Shape) (![1] : Fin 1 → Fin 2) h' v := by
  funext i
  obtain ⟨z, q, rfl⟩ : ∃ (z : Fin 1) (q : Fin b), i = ix2 z q := ⟨i 0, i 1, eq_ix2 i⟩
  rw [BroadcastInDim2.vecToRow_apply]
  obtain rfl : z = 0 := Fin.ext (by have := z.isLt; omega)
  exact shapeCast_apply v h (ix2 (0 : Fin 1) q) (ix1 q) (by
    rw [Shape.rowMajor_val_two, Shape.rowMajor_val_one]; show q.val = 0 * b + q.val; omega)

end Idealize.ShloMosaic.ReshapeVec
-- ==== Proof.Region0.lean ====
/-
  REGION 0 of the kernel's program: the first feature transform.  The region walks 20 tiles of 5000 rows; at tile t
  it multiplies rows 5000 t … 5000 t + 4999 of the node features X by the whole 128 x 128 weight matrix W and writes
  the product back as rows 5000 t … of the output array.  Entry (5000 t + r, q) of the output is therefore the sum
  over k of X (5000 t + r, k) * W (k, q): the tiles fit together into the ONE product X · W, which is what the host's
  dot_general of the two whole arrays computes.  The statement holds for whatever the buffers contain when the
  region is entered (`V`).
-/
import proofs.«144005_j54065048322391_1_alg».proof.Proof.Gen.KernelIdeal.Frame
import proofs.«144005_j54065048322391_1_alg».proof.Proof.Layers

set_option maxRecDepth 16384

noncomputable section

open scoped BigOperators

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The whole product: the host's dot_general of the two arrays. -/
abbrev G (X : FVec Ideal S100000x128 .f32) (W : FVec Ideal S128x128 .f32) : FVec Ideal S100000x128 .f32 :=
  Cert.Gcn.dense X W

theorem G_entry (X : FVec Ideal S100000x128 .f32) (W : FVec Ideal S128x128 .f32) (p : Fin 100000) (q : Fin 128) :
    G X W (ix2 p q) = ∑ k : Fin 128, X (ix2 p k) * W (ix2 k q) :=
  Cert.Gcn.dense_entry X W p q

/-- One tile's payload, entry by entry. -/
theorem pay_entry (x0 : FVec Ideal S5000x128 .f32) (x1 : FVec Ideal S128x128 .f32) (r : Fin 5000) (q : Fin 128) :
    k0_pay1 x0 x1 (ix2 r q) = ∑ k : Fin 128, x0 (ix2 r k) * x1 (ix2 k q) := by
  unfold k0_pay1
  exact Cert.Gcn.matmul_entry (A := 5000) dot_S5000x128_S128x128_S5000x128_1_0_0_1_n_n rfl rfl rfl rfl rfl rfl x0 x1 _ _ r q

/-- The printed index maps over the grid: the features' window and the output's move one tile of rows per point,
    the weights' window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem N_lt (t : Fin cfg0.N) : t.val < 20 := by have h : t.val < grid0.N := t.isLt; rw [N_0] at h; exact h

/-- The features' window: entry (r, k) of tile t is the array's entry (5000 t + r, k). -/
theorem feat_read (c : Dev nD) (t : Fin cfg0.N) (r : Fin 5000) (k : Fin 128) (P : Fin 100000)
    (hP : P.val = t.val * 5000 + r.val) :
    (iblk0 V c 0 t : S5000x128.Idx → EReal) (ix2 r k) = V c main_arg0 (ix2 P k) := by
  unfold iblk0
  show V c main_arg0 (((cfg0.win 0).blk t).view.emb (ix2 r k)) = V c main_arg0 (ix2 P k)
  refine congrArg (V c main_arg0) (funext fun a => Fin.ext ?_)
  obtain ⟨e0, e1, -⟩ := idx_facts t
  match a with
  | ⟨0, _⟩ => show win0_0.index t (0 : Fin 2) * 5000 + 1 * r.val = P.val; omega
  | ⟨1, _⟩ => show win0_0.index t (1 : Fin 2) * 128 + 1 * k.val = k.val; omega

/-- The weights' window: every tile sees the whole matrix. -/
theorem wt_read (c : Dev nD) (t : Fin cfg0.N) (k q : Fin 128) :
    (iblk0 V c 1 t : S128x128.Idx → EReal) (ix2 k q) = V c main_arg2 (ix2 k q) := by
  unfold iblk0
  show V c main_arg2 (((cfg0.win 1).blk t).view.emb (ix2 k q)) = V c main_arg2 (ix2 k q)
  refine congrArg (V c main_arg2) (funext fun a => Fin.ext ?_)
  obtain ⟨-, -, e2, e3, -⟩ := idx_facts t
  match a with
  | ⟨0, _⟩ => show win0_1.index t (0 : Fin 2) * 128 + 1 * k.val = k.val; omega
  | ⟨1, _⟩ => show win0_1.index t (1 : Fin 2) * 128 + 1 * q.val = q.val; omega

/-- WHAT POINT t WRITES BACK is tile t of the whole product. -/
theorem flushed_eq (c : Dev nD) (t : Fin cfg0.N) :
    (dat0 V c).flushed 2 t = ((cfg0.win 2).blk t).view.read (Elt Ideal) (G (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  funext j
  show k0_pay1 (iblk0 V c 0 t) (iblk0 V c 1 t) ((win0 2).xinj (grid0.coords t) j)
    = G (V c main_arg0) (V c main_arg2) (((cfg0.win 2).blk t).view.emb j)
  obtain ⟨r, q, hrq⟩ : ∃ (r : Fin 5000) (q : Fin 128), (win0 2).xinj (grid0.coords t) j = ix2 r q := ⟨_, _, eq_ix2 _⟩
  have hr : r.val = (j 0).val := congrArg (fun J : S5000x128.Idx => (J 0).val) hrq.symm
  have hq : q.val = (j 1).val := congrArg (fun J : S5000x128.Idx => (J 1).val) hrq.symm
  have ht := N_lt t
  obtain ⟨-, -, -, -, e4, e5⟩ := idx_facts t
  have hP : t.val * 5000 + r.val < 100000 := by have := r.isLt; omega
  have hemb : ((cfg0.win 2).blk t).view.emb j = ix2 (⟨t.val * 5000 + r.val, hP⟩ : Fin 100000) q :=
    funext fun a => Fin.ext (by
      match a with
      | ⟨0, _⟩ => show win0_2.index t (0 : Fin 2) * 5000 + 1 * (j 0).val = t.val * 5000 + r.val; omega
      | ⟨1, _⟩ => show win0_2.index t (1 : Fin 2) * 128 + 1 * (j 1).val = q.val; omega)
  rw [hrq, pay_entry, hemb, G_entry]
  refine Finset.sum_congr rfl fun k _ => ?_
  rw [feat_read V c t r k ⟨t.val * 5000 + r.val, hP⟩ rfl, wt_read V c t k q]

/-- An index of the output array is in point t's tile iff each coordinate is in the tile's range on its axis. -/
theorem mem_blk (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v29).slice (win0_2.rect t)).set ↔ _
  rw [View.set_slice_whole, Rect.mem_set_unit]
  exact Iff.rfl

/-- The 20 tiles cover the output array: row p lies in tile p / 5000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : (i 0).val / 5000 < cfg0.N := by show _ < grid0.N; rw [N_0]; omega
  obtain ⟨-, -, -, -, e4, e5⟩ := idx_facts ⟨(i 0).val / 5000, hN⟩
  refine ⟨⟨(i 0).val / 5000, hN⟩, flush0_2 _, ?_⟩
  rw [mem_blk]
  intro a
  match a with
  | ⟨0, _⟩ =>
    show win0_2.index ⟨(i 0).val / 5000, hN⟩ (0 : Fin 2) * 5000 ≤ (i 0).val
      ∧ (i 0).val < win0_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hN⟩ (1 : Fin 2) * 128 ≤ (i 1).val
      ∧ (i 1).val < win0_2.index ⟨(i 0).val / 5000, hN⟩ (1 : Fin 2) * 128 + 128
    rw [e5]; omega

/-- REGION 0's output array when the region is left: the whole product of the features and the weights. -/
theorem value (c : Dev nD) : (dat0 V c).arrAt 2 cfg0.N = G (V c main_arg0) (V c main_arg2) :=
  (dat0 V c).arrAt_eq_of_cover 2 (G (V c main_arg0) (V c main_arg2)) (fun t _ => flushed_eq V c t) cover

end Cert.KernelIdeal.Region0

end
-- ==== Proof.Region1.lean ====
/-
  REGION 1 of the kernel's program: the first layer's bias and rectifier fused with the second feature transform.
  At tile t the region takes rows 5000 t … 5000 t + 4999 of the aggregated messages M, adds the bias row b to each,
  takes max (·, 0) and multiplies by the whole 128 x 128 weight matrix W.  Entry (5000 t + r, q) of the output is the
  sum over k of max (M (5000 t + r, k) + b (0, k), 0) * W (k, q): the tiles fit together into
  relu (M + b) · W of the whole arrays.  The statement holds for whatever the buffers contain when the region is
  entered (`V`).
-/
import proofs.«144005_j54065048322391_1_alg».proof.Proof.Gen.KernelIdeal.Frame
import proofs.«144005_j54065048322391_1_alg».proof.Proof.Layers

set_option maxRecDepth 16384

noncomputable section

open scoped BigOperators

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- relu (M + b) · W of the whole arrays. -/
abbrev G (M : FVec Ideal S100000x128 .f32) (b : FVec Ideal S1x128 .f32) (W : FVec Ideal S128x128 .f32) :
    FVec Ideal S100000x128 .f32 :=
  Cert.Gcn.dense (Cert.Gcn.relu (Cert.Gcn.addRow M b)) W

theorem G_entry (M : FVec Ideal S100000x128 .f32) (b : FVec Ideal S1x128 .f32) (W : FVec Ideal S128x128 .f32)
    (p : Fin 100000) (q : Fin 128) :
    G M b W (ix2 p q) = ∑ k : Fin 128, Cert.Gcn.reluS (M (ix2 p k) + b (ix2 (0 : Fin 1) k)) * W (ix2 k q) := by
  show Cert.Gcn.dense (Cert.Gcn.relu (Cert.Gcn.addRow M b)) W (ix2 p q) = _
  rw [Cert.Gcn.dense_entry]
  refine Finset.sum_congr rfl fun k _ => ?_
  rw [Cert.Gcn.relu_entry, Cert.Gcn.addRow_entry]

/-- One tile's payload, entry by entry. -/
theorem pay_entry (x0 : FVec Ideal S5000x128 .f32) (x1 : FVec Ideal S1x128 .f32) (x2 : FVec Ideal S128x128 .f32)
    (r : Fin 5000) (q : Fin 128) :
    k1_pay1 (F := Ideal) x0 x1 x2 (ix2 r q) = ∑ k : Fin 128, Cert.Gcn.reluS (x0 (ix2 r k) + x1 (ix2 (0 : Fin 1) k)) * x2 (ix2 k q) := by
  unfold k1_pay1
  refine (Cert.Gcn.matmul_entry (A := 5000) dot_S5000x128_S128x128_S5000x128_1_0_0_1_n_n rfl rfl rfl rfl rfl rfl _ x2 _ _ r q).trans ?_
  refine Finset.sum_congr rfl fun k _ => ?_
  rw [maximumf_apply, addf_apply, shapeCast_self, Cert.Gcn.rowSpread_entry (A := 5000) x1 _ _ r k, broadcast_apply]
  rfl

/-- The printed index maps over the grid: the messages' window and the output's move one tile of rows per point,
    the bias row's and the weights' windows stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem N_lt (t : Fin cfg1.N) : t.val < 20 := by have h : t.val < grid1.N := t.isLt; rw [N_1] at h; exact h

/-- The messages' window: entry (r, k) of tile t is the array's entry (5000 t + r, k). -/
theorem rows_read (c : Dev nD) (t : Fin cfg1.N) (r : Fin 5000) (k : Fin 128) (P : Fin 100000)
    (hP : P.val = t.val * 5000 + r.val) :
    (iblk1 V c 0 t : S5000x128.Idx → EReal) (ix2 r k) = V c main_v42 (ix2 P k) := by
  unfold iblk1
  show V c main_v42 (((cfg1.win 0).blk t).view.emb (ix2 r k)) = V c main_v42 (ix2 P k)
  refine congrArg (V c main_v42) (funext fun a => Fin.ext ?_)
  obtain ⟨e0, e1, -⟩ := idx_facts t
  match a with
  | ⟨0, _⟩ => show win1_0.index t (0 : Fin 2) * 5000 + 1 * r.val = P.val; omega
  | ⟨1, _⟩ => show win1_0.index t (1 : Fin 2) * 128 + 1 * k.val = k.val; omega

/-- The bias row's window: every tile sees the whole row. -/
theorem bias_read (c : Dev nD) (t : Fin cfg1.N) (z : Fin 1) (k : Fin 128) :
    (iblk1 V c 1 t : S1x128.Idx → EReal) (ix2 z k) = V c main_v43 (ix2 z k) := by
  unfold iblk1
  show V c main_v43 (((cfg1.win 1).blk t).view.emb (ix2 z k)) = V c main_v43 (ix2 z k)
  refine congrArg (V c main_v43) (funext fun a => Fin.ext ?_)
  obtain ⟨-, -, e2, e3, -⟩ := idx_facts t
  match a with
  | ⟨0, _⟩ => show win1_1.index t (0 : Fin 2) * 1 + 1 * z.val = z.val; omega
  | ⟨1, _⟩ => show win1_1.index t (1 : Fin 2) * 128 + 1 * k.val = k.val; omega

/-- The weights' window: every tile sees the whole matrix. -/
theorem wt_read (c : Dev nD) (t : Fin cfg1.N) (k q : Fin 128) :
    (iblk1 V c 2 t : S128x128.Idx → EReal) (ix2 k q) = V c main_arg4 (ix2 k q) := by
  unfold iblk1
  show V c main_arg4 (((cfg1.win 2).blk t).view.emb (ix2 k q)) = V c main_arg4 (ix2 k q)
  refine congrArg (V c main_arg4) (funext fun a => Fin.ext ?_)
  obtain ⟨-, -, -, -, e4, e5, -⟩ := idx_facts t
  match a with
  | ⟨0, _⟩ => show win1_2.index t (0 : Fin 2) * 128 + 1 * k.val = k.val; omega
  | ⟨1, _⟩ => show win1_2.index t (1 : Fin 2) * 128 + 1 * q.val = q.val; omega

/-- WHAT POINT t WRITES BACK is tile t of relu (M + b) · W. -/
theorem flushed_eq (c : Dev nD) (t : Fin cfg1.N) :
    (dat1 V c).flushed 3 t
      = ((cfg1.win 3).blk t).view.read (Elt Ideal) (G (V c main_v42) (V c main_v43) (V c main_arg4)) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x128) hz, View.ld_unit_zero (S := S1x128) hz]
  funext j
  show k1_pay1 (iblk1 V c 0 t) (iblk1 V c 1 t) (iblk1 V c 2 t) ((win1 3).xinj (grid1.coords t) j)
    = G (V c main_v42) (V c main_v43) (V c main_arg4) (((cfg1.win 3).blk t).view.emb j)
  obtain ⟨r, q, hrq⟩ : ∃ (r : Fin 5000) (q : Fin 128), (win1 3).xinj (grid1.coords t) j = ix2 r q := ⟨_, _, eq_ix2 _⟩
  have hr : r.val = (j 0).val := congrArg (fun J : S5000x128.Idx => (J 0).val) hrq.symm
  have hq : q.val = (j 1).val := congrArg (fun J : S5000x128.Idx => (J 1).val) hrq.symm
  have ht := N_lt t
  obtain ⟨-, -, -, -, -, -, e6, e7⟩ := idx_facts t
  have hP : t.val * 5000 + r.val < 100000 := by have := r.isLt; omega
  have hemb : ((cfg1.win 3).blk t).view.emb j = ix2 (⟨t.val * 5000 + r.val, hP⟩ : Fin 100000) q :=
    funext fun a => Fin.ext (by
      match a with
      | ⟨0, _⟩ => show win1_3.index t (0 : Fin 2) * 5000 + 1 * (j 0).val = t.val * 5000 + r.val; omega
      | ⟨1, _⟩ => show win1_3.index t (1 : Fin 2) * 128 + 1 * (j 1).val = q.val; omega)
  rw [hrq, pay_entry, hemb, G_entry]
  refine Finset.sum_congr rfl fun k _ => ?_
  rw [rows_read V c t r k ⟨t.val * 5000 + r.val, hP⟩ rfl, bias_read V c t 0 k, wt_read V c t k q]

/-- An index of the output array is in point t's tile iff each coordinate is in the tile's range on its axis. -/
theorem mem_blk (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v44).slice (win1_3.rect t)).set ↔ _
  rw [View.set_slice_whole, Rect.mem_set_unit]
  exact Iff.rfl

/-- The 20 tiles cover the output array: row p lies in tile p / 5000. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : (i 0).val / 5000 < cfg1.N := by show _ < grid1.N; rw [N_1]; omega
  obtain ⟨-, -, -, -, -, -, e6, e7⟩ := idx_facts ⟨(i 0).val / 5000, hN⟩
  refine ⟨⟨(i 0).val / 5000, hN⟩, flush1_3 _, ?_⟩
  rw [mem_blk]
  intro a
  match a with
  | ⟨0, _⟩ =>
    show win1_3.index ⟨(i 0).val / 5000, hN⟩ (0 : Fin 2) * 5000 ≤ (i 0).val
      ∧ (i 0).val < win1_3.index ⟨(i 0).val / 5000, hN⟩ (0 : Fin 2) * 5000 + 5000
    rw [e6]; show (i 0).val / 5000 * 5000 ≤ (i 0).val ∧ (i 0).val < (i 0).val / 5000 * 5000 + 5000; omega
  | ⟨1, _⟩ =>
    show win1_3.index ⟨(i 0).val / 5000, hN⟩ (1 : Fin 2) * 128 ≤ (i 1).val
      ∧ (i 1).val < win1_3.index ⟨(i 0).val / 5000, hN⟩ (1 : Fin 2) * 128 + 128
    rw [e7]; omega

/-- REGION 1's output array when the region is left: relu (M + b) · W of the arrays it was entered with. -/
theorem value (c : Dev nD) :
    (dat1 V c).arrAt 3 cfg1.N = G (V c main_v42) (V c main_v43) (V c main_arg4) :=
  (dat1 V c).arrAt_eq_of_cover 3 (G (V c main_v42) (V c main_v43) (V c main_arg4)) (fun t _ => flushed_eq V c t) cover

end Cert.KernelIdeal.Region1

end
-- ==== Proof.Region2.lean ====
/-
  REGION 2 of the kernel's program: the second layer's bias and rectifier, and the projection head.  At tile t the
  region takes rows 5000 t … 5000 t + 4999 of the aggregated messages M and computes, row by row,

      z = max (M + b, 0)                       (written back as the first output),
      h = z · W1 + b1,   g = h where h > 0, a · h elsewhere,
      p = g · W2 + b2                          (written back as the second output),

  with the 128 x 128 weight matrices W1, W2, the bias rows b, b1, b2 and the [1, 1] scalar a seen whole by every tile.
  Every row of the outputs depends on the same row of M only, so the tiles fit together into the same formulas of
  the whole arrays.  The statements hold for whatever the buffers contain when the region is entered (`V`).
-/
import proofs.«144005_j54065048322391_1_alg».proof.Proof.Gen.KernelIdeal.Frame
import proofs.«144005_j54065048322391_1_alg».proof.Proof.Layers

set_option maxRecDepth 16384

noncomputable section

open scoped BigOperators

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen
open Cert.Gcn (reluS preluS)

variable (V : (c : Dev nD) → (b : Ref sig .tc) → Buf (Elt Ideal) ((c : Thread nD τ).loc b))

theorem hz : (![0, 0] : Fin 2 → Nat) = fun _ => 0 := funext fun a => by fin_cases a <;> rfl

/-! ## The whole-array functions -/

/-- z = relu (M + b) of the whole arrays. -/
abbrev Gz (M : FVec Ideal S100000x128 .f32) (b : FVec Ideal S1x128 .f32) : FVec Ideal S100000x128 .f32 :=
  Cert.Gcn.relu (Cert.Gcn.addRow M b)

/-- The [1, 1] scalar as a rank-0 array. -/
abbrev scalarOf (a : FVec Ideal S1x1 .f32) : FVec Ideal S_ .f32 := fun _ => a (ix2 (0 : Fin 1) (0 : Fin 1))

/-- p = prelu a (z · W1 + b1) · W2 + b2 of the whole arrays. -/
abbrev Gp (M : FVec Ideal S100000x128 .f32) (b : FVec Ideal S1x128 .f32) (W1 : FVec Ideal S128x128 .f32)
    (b1 : FVec Ideal S1x128 .f32) (a : FVec Ideal S1x1 .f32) (W2 : FVec Ideal S128x128 .f32) (b2 : FVec Ideal S1x128 .f32) :
    FVec Ideal S100000x128 .f32 :=
  Cert.Gcn.addRow (Cert.Gcn.dense (Cert.Gcn.prelu (scalarOf a) (Cert.Gcn.addRow (Cert.Gcn.dense (Gz M b) W1) b1)) W2) b2

/-- One hidden activation before the rectifier, from one row of messages: the row given as a function of the column. -/
def hidS (row : Fin 128 → EReal) (b : Fin 128 → EReal) (W1 : Fin 128 → Fin 128 → EReal) (b1 : Fin 128 → EReal) (k : Fin 128) : EReal :=
  (∑ j : Fin 128, reluS (row j + b j) * W1 j k) + b1 k

/-- One projected entry from one row of messages. -/
def outS (row : Fin 128 → EReal) (b : Fin 128 → EReal) (W1 : Fin 128 → Fin 128 → EReal) (b1 : Fin 128 → EReal) (a : EReal)
    (W2 : Fin 128 → Fin 128 → EReal) (b2 : Fin 128 → EReal) (q : Fin 128) : EReal :=
  (∑ k : Fin 128, preluS a (hidS row b W1 b1 k) * W2 k q) + b2 q

theorem Gz_entry (M : FVec Ideal S100000x128 .f32) (b : FVec Ideal S1x128 .f32) (p : Fin 100000) (q : Fin 128) :
    Gz M b (ix2 p q) = reluS (M (ix2 p q) + b (ix2 (0 : Fin 1) q)) := by
  show Cert.Gcn.relu (Cert.Gcn.addRow M b) (ix2 p q) = _
  rw [Cert.Gcn.relu_entry, Cert.Gcn.addRow_entry]

theorem Gp_entry (M : FVec Ideal S100000x128 .f32) (b : FVec Ideal S1x128 .f32) (W1 : FVec Ideal S128x128 .f32)
    (b1 : FVec Ideal S1x128 .f32) (a : FVec Ideal S1x1 .f32) (W2 : FVec Ideal S128x128 .f32) (b2 : FVec Ideal S1x128 .f32)
    (p : Fin 100000) (q : Fin 128) :
    Gp M b W1 b1 a W2 b2 (ix2 p q)
      = outS (fun j => M (ix2 p j)) (fun j => b (ix2 (0 : Fin 1) j)) (fun j k => W1 (ix2 j k)) (fun k => b1 (ix2 (0 : Fin 1) k))
          (a (ix2 (0 : Fin 1) (0 : Fin 1))) (fun k q => W2 (ix2 k q)) (fun q => b2 (ix2 (0 : Fin 1) q)) q := by
  show Cert.Gcn.addRow (Cert.Gcn.dense (Cert.Gcn.prelu (scalarOf a) (Cert.Gcn.addRow (Cert.Gcn.dense (Gz M b) W1) b1)) W2) b2 (ix2 p q) = _
  unfold outS hidS
  rw [Cert.Gcn.addRow_entry, Cert.Gcn.dense_entry]
  refine congrArg (· + b2 (ix2 (0 : Fin 1) q)) (Finset.sum_congr rfl fun k _ => ?_)
  rw [Cert.Gcn.prelu_entry, Cert.Gcn.addRow_entry, Cert.Gcn.dense_entry]
  refine congrArg (fun s => preluS (a (ix2 (0 : Fin 1) (0 : Fin 1))) (s + b1 (ix2 (0 : Fin 1) k)) * W2 (ix2 k q))
    (Finset.sum_congr rfl fun j _ => ?_)
  rw [Gz_entry]

/-! ## One tile's payloads, entry by entry -/

theorem pay1_entry (x0 : FVec Ideal S5000x128 .f32) (x1 : FVec Ideal S1x128 .f32) (r : Fin 5000) (q : Fin 128) :
    k2_pay1 (F := Ideal) x0 x1 (ix2 r q) = reluS (x0 (ix2 r q) + x1 (ix2 (0 : Fin 1) q)) := by
  unfold k2_pay1
  refine (maximumf_apply _ _ _).trans ?_
  rw [addf_apply, shapeCast_self, Cert.Gcn.rowSpread_entry (A := 5000) x1 _ _ r q, broadcast_apply]
  rfl

/-- A tile's hidden activations before the rectifier. -/
def hidT (x0 : FVec Ideal S5000x128 .f32) (x1 : FVec Ideal S1x128 .f32) (x2 : FVec Ideal S128x128 .f32)
    (x3 : FVec Ideal S1x128 .f32) : FVec Ideal S5000x128 .f32 :=
  addf (matmul dot_S5000x128_S128x128_S5000x128_1_0_0_1_n_n none (truncf .bf16 (k2_pay1 x0 x1) bitsLt_bf16_f32)
      (truncf .bf16 x2 bitsLt_bf16_f32) (constant S5000x128 .f32 0x00000000#32))
    (broadcastTo S5000x128 (shapeCast S1x128 x3 shapeCasts_S1x128_S1x128) broadcasts_S1x128_S5000x128)

theorem hidT_entry (x0 : FVec Ideal S5000x128 .f32) (x1 : FVec Ideal S1x128 .f32) (x2 : FVec Ideal S128x128 .f32)
    (x3 : FVec Ideal S1x128 .f32) (r : Fin 5000) (k : Fin 128) :
    hidT x0 x1 x2 x3 (ix2 r k)
      = hidS (fun j => x0 (ix2 r j)) (fun j => x1 (ix2 (0 : Fin 1) j)) (fun j k => x2 (ix2 j k)) (fun k => x3 (ix2 (0 : Fin 1) k)) k := by
  unfold hidT hidS
  rw [addf_apply, Cert.Gcn.rowSpread_entry (A := 5000) x3 _ _ r k,
    Cert.Gcn.matmul_entry (A := 5000) dot_S5000x128_S128x128_S5000x128_1_0_0_1_n_n rfl rfl rfl rfl rfl rfl (k2_pay1 x0 x1) x2 _ _ r k]
  refine congrArg (· + x3 (ix2 (0 : Fin 1) k)) (Finset.sum_congr rfl fun j _ => ?_)
  rw [pay1_entry]

/-- A tile's hidden activations after the parametric rectifier. -/
def actT (x0 : FVec Ideal S5000x128 .f32) (x1 : FVec Ideal S1x128 .f32) (x2 : FVec Ideal S128x128 .f32)
    (x3 : FVec Ideal S1x128 .f32) (x4 : FVec Ideal S1x1 .f32) : FVec Ideal S5000x128 .f32 :=
  select (cmpf .ogt (hidT x0 x1 x2 x3) (broadcast S5000x128 (Scalar.ofBits .f32 0x00000000#32)))
    (hidT x0 x1 x2 x3)
    (mulf (broadcastTo S5000x128 (shapeCast S1x1 x4 shapeCasts_S1x1_S1x1) broadcasts_S1x1_S5000x128) (hidT x0 x1 x2 x3))

theorem actT_entry (x0 : FVec Ideal S5000x128 .f32) (x1 : FVec Ideal S1x128 .f32) (x2 : FVec Ideal S128x128 .f32)
    (x3 : FVec Ideal S1x128 .f32) (x4 : FVec Ideal S1x1 .f32) (r : Fin 5000) (k : Fin 128) :
    actT x0 x1 x2 x3 x4 (ix2 r k) = preluS (x4 (ix2 (0 : Fin 1) (0 : Fin 1))) (hidT x0 x1 x2 x3 (ix2 r k)) := by
  unfold actT preluS
  rw [select_apply, cmpf_apply, mulf_apply, broadcast_apply, Cert.Gcn.oneSpread_entry (A := 5000) x4 _ _ r k]
  rfl

/-- The second payload is the product of the rectified hidden activations with the second weights, plus the bias row. -/
theorem pay2_eq (x0 : FVec Ideal S5000x128 .f32) (x1 : FVec Ideal S1x128 .f32) (x2 : FVec Ideal S128x128 .f32)
    (x3 : FVec Ideal S1x128 .f32) (x4 : FVec Ideal S1x1 .f32) (x5 : FVec Ideal S128x128 .f32) (x6 : FVec Ideal S1x128 .f32) :
    k2_pay2 (F := Ideal) x0 x1 x2 x3 x4 x5 x6
      = addf (matmul dot_S5000x128_S128x128_S5000x128_1_0_0_1_n_n none (truncf .bf16 (actT x0 x1 x2 x3 x4) bitsLt_bf16_f32)
          (truncf .bf16 x5 bitsLt_bf16_f32) (constant S5000x128 .f32 0x00000000#32))
        (broadcastTo S5000x128 (shapeCast S1x128 x6 shapeCasts_S1x128_S1x128) broadcasts_S1x128_S5000x128) := rfl

theorem pay2_entry (x0 : FVec Ideal S5000x128 .f32) (x1 : FVec Ideal S1x128 .f32) (x2 : FVec Ideal S128x128 .f32)
    (x3 : FVec Ideal S1x128 .f32) (x4 : FVec Ideal S1x1 .f32) (x5 : FVec Ideal S128x128 .f32) (x6 : FVec Ideal S1x128 .f32)
    (r : Fin 5000) (q : Fin 128) :
    k2_pay2 (F := Ideal) x0 x1 x2 x3 x4 x5 x6 (ix2 r q)
      = outS (fun j => x0 (ix2 r j)) (fun j => x1 (ix2 (0 : Fin 1) j)) (fun j k => x2 (ix2 j k)) (fun k => x3 (ix2 (0 : Fin 1) k))
          (x4 (ix2 (0 : Fin 1) (0 : Fin 1))) (fun k q => x5 (ix2 k q)) (fun q => x6 (ix2 (0 : Fin 1) q)) q := by
  rw [pay2_eq]
  unfold outS
  rw [addf_apply, Cert.Gcn.rowSpread_entry (A := 5000) x6 _ _ r q,
    Cert.Gcn.matmul_entry (A := 5000) dot_S5000x128_S128x128_S5000x128_1_0_0_1_n_n rfl rfl rfl rfl rfl rfl (actT x0 x1 x2 x3 x4) x5 _ _ r q]
  refine congrArg (· + x6 (ix2 (0 : Fin 1) q)) (Finset.sum_congr rfl fun k _ => ?_)
  rw [actT_entry, hidT_entry]

/-! ## The windows' blocks -/

/-- The printed index maps over the grid: the messages' window moves one tile of rows per point … -/
theorem idx_rows : ∀ t : Fin cfg2.N, win2_0.index t (0 : Fin 2) = t.val ∧ win2_0.index t (1 : Fin 2) = 0 :=
  (by decide +kernel : ∀ t : Fin grid2.N, _)
/-- … so do the two outputs' windows … -/
theorem idx_out7 : ∀ t : Fin cfg2.N, win2_7.index t (0 : Fin 2) = t.val ∧ win2_7.index t (1 : Fin 2) = 0 :=
  (by decide +kernel : ∀ t : Fin grid2.N, _)
theorem idx_out8 : ∀ t : Fin cfg2.N, win2_8.index t (0 : Fin 2) = t.val ∧ win2_8.index t (1 : Fin 2) = 0 :=
  (by decide +kernel : ∀ t : Fin grid2.N, _)
/-- … and the windows of the bias rows, the weights and the scalar stay. -/
theorem idx_fixed1 : ∀ t : Fin cfg2.N, win2_1.index t (0 : Fin 2) = 0 ∧ win2_1.index t (1 : Fin 2) = 0 :=
  (by decide +kernel : ∀ t : Fin grid2.N, _)
theorem idx_fixed2 : ∀ t : Fin cfg2.N, win2_2.index t (0 : Fin 2) = 0 ∧ win2_2.index t (1 : Fin 2) = 0 :=
  (by decide +kernel : ∀ t : Fin grid2.N, _)
theorem idx_fixed3 : ∀ t : Fin cfg2.N, win2_3.index t (0 : Fin 2) = 0 ∧ win2_3.index t (1 : Fin 2) = 0 :=
  (by decide +kernel : ∀ t : Fin grid2.N, _)
theorem idx_fixed4 : ∀ t : Fin cfg2.N, win2_4.index t (0 : Fin 2) = 0 ∧ win2_4.index t (1 : Fin 2) = 0 :=
  (by decide +kernel : ∀ t : Fin grid2.N, _)
theorem idx_fixed5 : ∀ t : Fin cfg2.N, win2_5.index t (0 : Fin 2) = 0 ∧ win2_5.index t (1 : Fin 2) = 0 :=
  (by decide +kernel : ∀ t : Fin grid2.N, _)
theorem idx_fixed6 : ∀ t : Fin cfg2.N, win2_6.index t (0 : Fin 2) = 0 ∧ win2_6.index t (1 : Fin 2) = 0 :=
  (by decide +kernel : ∀ t : Fin grid2.N, _)

theorem N_lt (t : Fin cfg2.N) : t.val < 20 := by have h : t.val < grid2.N := t.isLt; rw [N_2] at h; exact h

/-- The messages' window: entry (r, k) of tile t is the array's entry (5000 t + r, k). -/
theorem rows_read (c : Dev nD) (t : Fin cfg2.N) (r : Fin 5000) (k : Fin 128) (P : Fin 100000)
    (hP : P.val = t.val * 5000 + r.val) :
    (iblk2 V c 0 t : S5000x128.Idx → EReal) (ix2 r k) = V c main_v57 (ix2 P k) := by
  unfold iblk2
  show V c main_v57 (((cfg2.win 0).blk t).view.emb (ix2 r k)) = V c main_v57 (ix2 P k)
  refine congrArg (V c main_v57) (funext fun a => Fin.ext ?_)
  obtain ⟨e0, e1⟩ := idx_rows t
  match a with
  | ⟨0, _⟩ => show win2_0.index t (0 : Fin 2) * 5000 + 1 * r.val = P.val; omega
  | ⟨1, _⟩ => show win2_0.index t (1 : Fin 2) * 128 + 1 * k.val = k.val; omega

/-- Window 1 (`main_v58`): every tile sees the whole array. -/
theorem bias_read (c : Dev nD) (t : Fin cfg2.N) (u : Fin 1) (v : Fin 128) :
    (iblk2 V c 1 t : S1x128.Idx → EReal) (ix2 u v) = V c main_v58 (ix2 u v) := by
  unfold iblk2
  show V c main_v58 (((cfg2.win 1).blk t).view.emb (ix2 u v)) = V c main_v58 (ix2 u v)
  refine congrArg (V c main_v58) (funext fun a => Fin.ext ?_)
  obtain ⟨e0, e1⟩ := idx_fixed1 t
  match a with
  | ⟨0, _⟩ => show win2_1.index t (0 : Fin 2) * 1 + 1 * u.val = u.val; omega
  | ⟨1, _⟩ => show win2_1.index t (1 : Fin 2) * 128 + 1 * v.val = v.val; omega

/-- Window 2 (`main_arg6`): every tile sees the whole array. -/
theorem wt1_read (c : Dev nD) (t : Fin cfg2.N) (u : Fin 128) (v : Fin 128) :
    (iblk2 V c 2 t : S128x128.Idx → EReal) (ix2 u v) = V c main_arg6 (ix2 u v) := by
  unfold iblk2
  show V c main_arg6 (((cfg2.win 2).blk t).view.emb (ix2 u v)) = V c main_arg6 (ix2 u v)
  refine congrArg (V c main_arg6) (funext fun a => Fin.ext ?_)
  obtain ⟨e0, e1⟩ := idx_fixed2 t
  match a with
  | ⟨0, _⟩ => show win2_2.index t (0 : Fin 2) * 128 + 1 * u.val = u.val; omega
  | ⟨1, _⟩ => show win2_2.index t (1 : Fin 2) * 128 + 1 * v.val = v.val; omega

/-- Window 3 (`main_v59`): every tile sees the whole array. -/
theorem bias1_read (c : Dev nD) (t : Fin cfg2.N) (u : Fin 1) (v : Fin 128) :
    (iblk2 V c 3 t : S1x128.Idx → EReal) (ix2 u v) = V c main_v59 (ix2 u v) := by
  unfold iblk2
  show V c main_v59 (((cfg2.win 3).blk t).view.emb (ix2 u v)) = V c main_v59 (ix2 u v)
  refine congrArg (V c main_v59) (funext fun a => Fin.ext ?_)
  obtain ⟨e0, e1⟩ := idx_fixed3 t
  match a with
  | ⟨0, _⟩ => show win2_3.index t (0 : Fin 2) * 1 + 1 * u.val = u.val; omega
  | ⟨1, _⟩ => show win2_3.index t (1 : Fin 2) * 128 + 1 * v.val = v.val; omega

/-- Window 4 (`main_v61`): every tile sees the whole array. -/
theorem scalar_read (c : Dev nD) (t : Fin cfg2.N) (u : Fin 1) (v : Fin 1) :
    (iblk2 V c 4 t : S1x1.Idx → EReal) (ix2 u v) = V c main_v61 (ix2 u v) := by
  unfold iblk2
  show V c main_v61 (((cfg2.win 4).blk t).view.emb (ix2 u v)) = V c main_v61 (ix2 u v)
  refine congrArg (V c main_v61) (funext fun a => Fin.ext ?_)
  obtain ⟨e0, e1⟩ := idx_fixed4 t
  match a with
  | ⟨0, _⟩ => show win2_4.index t (0 : Fin 2) * 1 + 1 * u.val = u.val; omega
  | ⟨1, _⟩ => show win2_4.index t (1 : Fin 2) * 1 + 1 * v.val = v.val; omega

/-- Window 5 (`main_arg9`): every tile sees the whole array. -/
theorem wt2_read (c : Dev nD) (t : Fin cfg2.N) (u : Fin 128) (v : Fin 128) :
    (iblk2 V c 5 t : S128x128.Idx → EReal) (ix2 u v) = V c main_arg9 (ix2 u v) := by
  unfold iblk2
  show V c main_arg9 (((cfg2.win 5).blk t).view.emb (ix2 u v)) = V c main_arg9 (ix2 u v)
  refine congrArg (V c main_arg9) (funext fun a => Fin.ext ?_)
  obtain ⟨e0, e1⟩ := idx_fixed5 t
  match a with
  | ⟨0, _⟩ => show win2_5.index t (0 : Fin 2) * 128 + 1 * u.val = u.val; omega
  | ⟨1, _⟩ => show win2_5.index t (1 : Fin 2) * 128 + 1 * v.val = v.val; omega

/-- Window 6 (`main_v60`): every tile sees the whole array. -/
theorem bias2_read (c : Dev nD) (t : Fin cfg2.N) (u : Fin 1) (v : Fin 128) :
    (iblk2 V c 6 t : S1x128.Idx → EReal) (ix2 u v) = V c main_v60 (ix2 u v) := by
  unfold iblk2
  show V c main_v60 (((cfg2.win 6).blk t).view.emb (ix2 u v)) = V c main_v60 (ix2 u v)
  refine congrArg (V c main_v60) (funext fun a => Fin.ext ?_)
  obtain ⟨e0, e1⟩ := idx_fixed6 t
  match a with
  | ⟨0, _⟩ => show win2_6.index t (0 : Fin 2) * 1 + 1 * u.val = u.val; omega
  | ⟨1, _⟩ => show win2_6.index t (1 : Fin 2) * 128 + 1 * v.val = v.val; omega

/-! ## From tiles to the arrays -/

/-- WHAT POINT t WRITES BACK through output window 7 is tile t of the whole-array function. -/
theorem flushed7_eq (c : Dev nD) (t : Fin cfg2.N) :
    (dat2 V c).flushed 7 t = ((cfg2.win 7).blk t).view.read (Elt Ideal) (Gz (V c main_v57) (V c main_v58)) := by
  show (cfg2.win 7).cut (grid2.coords t) ((dat2 V c).after 7 t) = _
  rw [after2_7]
  unfold out2_7
  rw [View.canon_unit_zero hz]
  simp only [View.ld_unit_zero (S := S5000x128) hz, View.ld_unit_zero (S := S128x128) hz, View.ld_unit_zero (S := S1x128) hz,
    View.ld_unit_zero (S := S1x1) hz]
  funext j
  show k2_pay1 (iblk2 V c 0 t) (iblk2 V c 1 t) ((win2 7).xinj (grid2.coords t) j)
    = Gz (V c main_v57) (V c main_v58) (((cfg2.win 7).blk t).view.emb j)
  obtain ⟨r, q, hrq⟩ : ∃ (r : Fin 5000) (q : Fin 128), (win2 7).xinj (grid2.coords t) j = ix2 r q := ⟨_, _, eq_ix2 _⟩
  have hr : r.val = (j 0).val := congrArg (fun J : S5000x128.Idx => (J 0).val) hrq.symm
  have hq : q.val = (j 1).val := congrArg (fun J : S5000x128.Idx => (J 1).val) hrq.symm
  have ht := N_lt t
  obtain ⟨e6, e7⟩ := idx_out7 t
  have hP : t.val * 5000 + r.val < 100000 := by have := r.isLt; omega
  have hemb : ((cfg2.win 7).blk t).view.emb j = ix2 (⟨t.val * 5000 + r.val, hP⟩ : Fin 100000) q :=
    funext fun a => Fin.ext (by
      match a with
      | ⟨0, _⟩ => show win2_7.index t (0 : Fin 2) * 5000 + 1 * (j 0).val = t.val * 5000 + r.val; omega
      | ⟨1, _⟩ => show win2_7.index t (1 : Fin 2) * 128 + 1 * (j 1).val = q.val; omega)
  rw [hrq, pay1_entry, hemb, Gz_entry]
  rw [rows_read V c t r q ⟨t.val * 5000 + r.val, hP⟩ rfl, bias_read V c t 0 q]

/-- An index of output 7's array is in point t's tile iff each coordinate is in the tile's range on its axis. -/
theorem mem_blk7 (t : Fin cfg2.N) (i : S100000x128.Idx) :
    i ∈ ((cfg2.win 7).blk t).view.set ↔ ∀ a : Fin 2, win2_7.index t a * S5000x128.size a ≤ (i a).val
      ∧ (i a).val < win2_7.index t a * S5000x128.size a + S5000x128.size a := by
  show i ∈ ((View.whole main_v62_0).slice (win2_7.rect t)).set ↔ _
  rw [View.set_slice_whole, Rect.mem_set_unit]
  exact Iff.rfl

/-- The 20 tiles cover output 7's array: row p lies in tile p / 5000. -/
theorem cover7 (i : S100000x128.Idx) :
    ∃ t : Fin cfg2.N, (cfg2.win 7).flush t = true ∧ i ∈ ((cfg2.win 7).blk t).view.set := by
  have hi0 : (i 0).val < 100000 := (i 0).isLt
  have hi1 : (i 1).val < 128 := (i 1).isLt
  have hN : (i 0).val / 5000 < cfg2.N := by show _ < grid2.N; rw [N_2]; omega
  obtain ⟨e6, e7⟩ := idx_out7 ⟨(i 0).val / 5000, hN⟩
  refine ⟨⟨(i 0).val / 5000, hN⟩, flush2_7 _, ?_⟩
  rw [mem_blk7]
  intro a
  match a with
  | ⟨0, _⟩ =>
    show win2_7.index ⟨(i 0).val / 5000, hN⟩ (0 : Fin 2) * 5000 ≤ (i 0).val
      ∧ (i 0).val < win2_7.index ⟨(i 0).val / 5000, hN⟩ (0 : Fin 2) * 5000 + 5000
    rw [e6]; show (i 0).val / 5000 * 5000 ≤ (i 0).val ∧ (i 0).val < (i 0).val / 5000 * 5000 + 5000; omega
  | ⟨1, _⟩ =>
    show win2_7.index ⟨(i 0).val / 5000, hN⟩ (1 : Fin 2) * 128 ≤ (i 1).val
      ∧ (i 1).val < win2_7.index ⟨(i 0).val / 5000, hN⟩ (1 : Fin 2) * 128 + 128
    rw [e7]; omega

/-- WHAT POINT t WRITES BACK through output window 8 is tile t of the whole-array function. -/
theorem flushed8_eq (c : Dev nD) (t : Fin cfg2.N) :
    (dat2 V c).flushed 8 t = ((cfg2.win 8).blk t).view.read (Elt Ideal) (Gp (V c main_v57) (V c main_v58) (V c main_arg6) (V c main_v59) (V c main_v61) (V c main_arg9) (V c main_v60)) := by
  show (cfg2.win 8).cut (grid2.coords t) ((dat2 V c).after 8 t) = _
  rw [after2_8]
  unfold out2_8
  rw [View.canon_unit_zero hz]
  simp only [View.ld_unit_zero (S := S5000x128) hz, View.ld_unit_zero (S := S128x128) hz, View.ld_unit_zero (S := S1x128) hz,
    View.ld_unit_zero (S := S1x1) hz]
  funext j
  show k2_pay2 (iblk2 V c 0 t) (iblk2 V c 1 t) (iblk2 V c 2 t) (iblk2 V c 3 t) (iblk2 V c 4 t) (iblk2 V c 5 t) (iblk2 V c 6 t) ((win2 8).xinj (grid2.coords t) j)
    = Gp (V c main_v57) (V c main_v58) (V c main_arg6) (V c main_v59) (V c main_v61) (V c main_arg9) (V c main_v60) (((cfg2.win 8).blk t).view.emb j)
  obtain ⟨r, q, hrq⟩ : ∃ (r : Fin 5000) (q : Fin 128), (win2 8).xinj (grid2.coords t) j = ix2 r q := ⟨_, _, eq_ix2 _⟩
  have hr : r.val = (j 0).val := congrArg (fun J : S5000x128.Idx => (J 0).val) hrq.symm
  have hq : q.val = (j 1).val := congrArg (fun J : S5000x128.Idx => (J 1).val) hrq.symm
  have ht := N_lt t
  obtain ⟨e6, e7⟩ := idx_out8 t
  have hP : t.val * 5000 + r.val < 100000 := by have := r.isLt; omega
  have hemb : ((cfg2.win 8).blk t).view.emb j = ix2 (⟨t.val * 5000 + r.val, hP⟩ : Fin 100000) q :=
    funext fun a => Fin.ext (by
      match a with
      | ⟨0, _⟩ => show win2_8.index t (0 : Fin 2) * 5000 + 1 * (j 0).val = t.val * 5000 + r.val; omega
      | ⟨1, _⟩ => show win2_8.index t (1 : Fin 2) * 128 + 1 * (j 1).val = q.val; omega)
  rw [hrq, pay2_entry, hemb, Gp_entry]
  have hrow : (fun j => (iblk2 V c 0 t : S5000x128.Idx → EReal) (ix2 r j)) = fun j => V c main_v57 (ix2 (⟨t.val * 5000 + r.val, hP⟩ : Fin 100000) j) :=
    funext fun j => rows_read V c t r j ⟨t.val * 5000 + r.val, hP⟩ rfl
  have hb : (fun j => (iblk2 V c 1 t : S1x128.Idx → EReal) (ix2 (0 : Fin 1) j)) = fun j => V c main_v58 (ix2 (0 : Fin 1) j) :=
    funext fun j => bias_read V c t 0 j
  have hw1 : (fun j k => (iblk2 V c 2 t : S128x128.Idx → EReal) (ix2 j k)) = fun j k => V c main_arg6 (ix2 j k) :=
    funext fun j => funext fun k => wt1_read V c t j k
  have hb1 : (fun k => (iblk2 V c 3 t : S1x128.Idx → EReal) (ix2 (0 : Fin 1) k)) = fun k => V c main_v59 (ix2 (0 : Fin 1) k) :=
    funext fun k => bias1_read V c t 0 k
  have hw2 : (fun k q => (iblk2 V c 5 t : S128x128.Idx → EReal) (ix2 k q)) = fun k q => V c main_arg9 (ix2 k q) :=
    funext fun k => funext fun q => wt2_read V c t k q
  have hb2 : (fun q => (iblk2 V c 6 t : S1x128.Idx → EReal) (ix2 (0 : Fin 1) q)) = fun q => V c main_v60 (ix2 (0 : Fin 1) q) :=
    funext fun q => bias2_read V c t 0 q
  rw [hrow, hb, hw1, hb1, hw2, hb2, scalar_read V c t 0 0]

/-- An index of output 8's array is in point t's tile iff each coordinate is in the tile's range on its axis. -/
theorem mem_blk8 (t : Fin cfg2.N) (i : S100000x128.Idx) :
    i ∈ ((cfg2.win 8).blk t).view.set ↔ ∀ a : Fin 2, win2_8.index t a * S5000x128.size a ≤ (i a).val
      ∧ (i a).val < win2_8.index t a * S5000x128.size a + S5000x128.size a := by
  show i ∈ ((View.whole main_v62_1).slice (win2_8.rect t)).set ↔ _
  rw [View.set_slice_whole, Rect.mem_set_unit]
  exact Iff.rfl

/-- The 20 tiles cover output 8's array: row p lies in tile p / 5000. -/
theorem cover8 (i : S100000x128.Idx) :
    ∃ t : Fin cfg2.N, (cfg2.win 8).flush t = true ∧ i ∈ ((cfg2.win 8).blk t).view.set := by
  have hi0 : (i 0).val < 100000 := (i 0).isLt
  have hi1 : (i 1).val < 128 := (i 1).isLt
  have hN : (i 0).val / 5000 < cfg2.N := by show _ < grid2.N; rw [N_2]; omega
  obtain ⟨e6, e7⟩ := idx_out8 ⟨(i 0).val / 5000, hN⟩
  refine ⟨⟨(i 0).val / 5000, hN⟩, flush2_8 _, ?_⟩
  rw [mem_blk8]
  intro a
  match a with
  | ⟨0, _⟩ =>
    show win2_8.index ⟨(i 0).val / 5000, hN⟩ (0 : Fin 2) * 5000 ≤ (i 0).val
      ∧ (i 0).val < win2_8.index ⟨(i 0).val / 5000, hN⟩ (0 : Fin 2) * 5000 + 5000
    rw [e6]; show (i 0).val / 5000 * 5000 ≤ (i 0).val ∧ (i 0).val < (i 0).val / 5000 * 5000 + 5000; omega
  | ⟨1, _⟩ =>
    show win2_8.index ⟨(i 0).val / 5000, hN⟩ (1 : Fin 2) * 128 ≤ (i 1).val
      ∧ (i 1).val < win2_8.index ⟨(i 0).val / 5000, hN⟩ (1 : Fin 2) * 128 + 128
    rw [e7]; omega

/-- REGION 2's first output array when the region is left: z = relu (M + b) of the arrays it was entered with. -/
theorem value_z (c : Dev nD) : (dat2 V c).arrAt 7 cfg2.N = Gz (V c main_v57) (V c main_v58) :=
  (dat2 V c).arrAt_eq_of_cover 7 (Gz (V c main_v57) (V c main_v58)) (fun t _ => flushed7_eq V c t) cover7

/-- REGION 2's second output array when the region is left: the projection head of z. -/
theorem value_p (c : Dev nD) : (dat2 V c).arrAt 8 cfg2.N = Gp (V c main_v57) (V c main_v58) (V c main_arg6) (V c main_v59) (V c main_v61) (V c main_arg9) (V c main_v60) :=
  (dat2 V c).arrAt_eq_of_cover 8 (Gp (V c main_v57) (V c main_v58) (V c main_arg6) (V c main_v59) (V c main_v61) (V c main_arg9) (V c main_v60)) (fun t _ => flushed8_eq V c t) cover8

end Cert.KernelIdeal.Region2

end
-- ==== Proof.KernelRun.lean ====
/-
  The run of the kernel's program with its two results in the post.  The program is three tiled regions among
  stretches of host operations; the contents of every buffer at the end of the run are the last boundary's contents
  `W6` (a fold through the program: each host stretch applies its operations, each region replaces its output arrays
  by what its grid points wrote back).  The frame statement keeps only the argument arrays of that final reading;
  here the two result arrays are kept as well, each equal to `W6` at its buffer.
-/
import proofs.«144005_j54065048322391_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; at the end the first result holds the
    last boundary's contents of its buffer, so does the second, and the arguments are as launched. -/
theorem run : θ_run defs (onTc (τ := τ) (main (F := F))) ⟨m, fun _ => 0, ρ⟩ (fun r => ∀ c : Dev nD,
      r.2.mem ((c.tc : Thread nD τ).loc main_v62_0) = W6 m ρ c (Proc.devRef .tc main_v62_0)
      ∧ r.2.mem ((c.tc : Thread nD τ).loc main_v62_1) = W6 m ρ c (Proc.devRef .tc main_v62_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v62_0 (by decide)),
       h c _ (mem_uc main_v62_1 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.Run

end
-- ==== Proof.Chain.lean ====
/-
  The kernel's program between its regions, read as values.  The program's buffers at each boundary are a fold through
  the program (`W1` … `W6`): a host stretch applies its operations, a region replaces its output arrays by what its
  tiles wrote back.  Read through that fold, every buffer a later part reads is a layer function of the arguments:

    after the first stretch   the edges' sources, destinations and weights (functions of the edge list only);
    after region 0            H1 = X · W1;
    after the second stretch  M1 = aggregate H1, and the first bias as a row;
    after region 1            H2 = relu (M1 + b1) · W2;
    after the third stretch   M2 = aggregate H2, the remaining biases as rows, the rectifier's slope as a [1, 1] array;
    after region 2            z = relu (M2 + b2) and p = prelu a (z · Wp1 + bp1) · Wp2 + bp2.

  A buffer that a stretch or a region does not write keeps its contents across it; the arguments are never written.
  The reference program computes the same layer functions (its stages unfold to them), the edge quantities twice.
-/
import proofs.«144005_j54065048322391_1_alg».proof.Proof.Gen.KernelIdeal.Frame
import proofs.«144005_j54065048322391_1_alg».proof.Proof.Gen.ReferenceIdeal.Read
import Idealize.ShloMosaic.Lib.StableHlo.Run
import proofs.«144005_j54065048322391_1_alg».proof.Proof.Layers
import proofs.«144005_j54065048322391_1_alg».proof.Proof.LibReshapeVec
import proofs.«144005_j54065048322391_1_alg».proof.Proof.Region0
import proofs.«144005_j54065048322391_1_alg».proof.Proof.Region1
import proofs.«144005_j54065048322391_1_alg».proof.Proof.Region2
import proofs.«144005_j54065048322391_1_alg».proof.Proof.KernelRun

set_option maxRecDepth 16384

noncomputable section

namespace Cert.KernelIdeal.Chain

open Idealize.ShloMosaic Idealize.ShloMosaic.TcCoe Idealize.ShloMosaic.ValueIdx Idealize.SL.Sem Idealize.ShloMosaic.StableHlo
open Cert.KernelIdeal Cert.KernelIdeal.Gen
open Cert.Gcn (Arr zeros relu addRow dense prelu rowOf aggregate)

variable (m : (ℓ : Loc nD τ sig) → Buf (Elt Ideal) ℓ) (ρ : Dev nD → PrngReg) (c : Dev nD)

/-- A buffer no operation of a host stretch writes keeps its contents across the stretch. -/
macro "stretch_keeps " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## The edge quantities, computed by the first stretch and kept to the end -/

/-- The edges' sources with the self loops appended. -/
abbrev src : IVec S1100000 32 := Cert.ReferenceIdeal.Read.val_main_v6 (F := Ideal) (m ((c : Thread nD τ).loc main_arg1))
/-- The edges' destinations with the self loops appended. -/
abbrev dst : IVec S1100000 32 := Cert.ReferenceIdeal.Read.val_main_v7 (F := Ideal) (m ((c : Thread nD τ).loc main_arg1))
/-- The edges' weights: the product of the inverse square roots of the two endpoints' degrees. -/
abbrev wgt : FVec Ideal S1100000 .f32 := Cert.ReferenceIdeal.Read.val_main_v29 (F := Ideal) (m ((c : Thread nD τ).loc main_arg1))

theorem W1_src : W1 m ρ c (Proc.devRef .tc main_v5) = src m c := by
  show StableHlo.after hostOps0 (W0 m ρ c) (Proc.devRef .tc main_v5) = _
  after_results_simp <;> rfl

theorem W1_dst : W1 m ρ c (Proc.devRef .tc main_v6) = dst m c := by
  show StableHlo.after hostOps0 (W0 m ρ c) (Proc.devRef .tc main_v6) = _
  after_results_simp <;> rfl

theorem W1_wgt : W1 m ρ c (Proc.devRef .tc main_v28) = wgt m c := by
  show StableHlo.after hostOps0 (W0 m ρ c) (Proc.devRef .tc main_v28) = _
  after_results_simp <;> rfl

/-! ## The layer values, as functions of the arguments -/

/-- H1 = X · W1. -/
abbrev h1 : Arr := dense (m ((c : Thread nD τ).loc main_arg0)) (m ((c : Thread nD τ).loc main_arg2))
/-- M1 = the messages H1 aggregated along the edges. -/
abbrev m1 : Arr := aggregate (src m c) (dst m c) (wgt m c) (h1 m c)
/-- H2 = relu (M1 + b1) · W2. -/
abbrev h2 : Arr := dense (relu (addRow (m1 m c) (rowOf (m ((c : Thread nD τ).loc main_arg3))))) (m ((c : Thread nD τ).loc main_arg4))
/-- M2 = the messages H2 aggregated along the edges. -/
abbrev m2 : Arr := aggregate (src m c) (dst m c) (wgt m c) (h2 m c)
/-- z = relu (M2 + b2): the first result. -/
abbrev zOut : Arr := relu (addRow (m2 m c) (rowOf (m ((c : Thread nD τ).loc main_arg5))))
/-- p = prelu a (z · Wp1 + bp1) · Wp2 + bp2: the second result. -/
abbrev pOut : Arr := addRow (dense (prelu (m ((c : Thread nD τ).loc main_arg8)) (addRow (dense (zOut m c) (m ((c : Thread nD τ).loc main_arg6))) (rowOf (m ((c : Thread nD τ).loc main_arg7))))) (m ((c : Thread nD τ).loc main_arg9))) (rowOf (m ((c : Thread nD τ).loc main_arg10)))

/-! ## The arguments keep their launch contents up to the boundary where they are last read -/

theorem W1_arg0 : W1 m ρ c (Proc.devRef .tc main_arg0) = (m ((c : Thread nD τ).loc main_arg0)) :=
  (show StableHlo.after hostOps0 (W0 m ρ c) (Proc.devRef .tc main_arg0) = W0 m ρ c (Proc.devRef .tc main_arg0) by stretch_keeps hostOps0).trans rfl
theorem W1_arg2 : W1 m ρ c (Proc.devRef .tc main_arg2) = (m ((c : Thread nD τ).loc main_arg2)) :=
  (show StableHlo.after hostOps0 (W0 m ρ c) (Proc.devRef .tc main_arg2) = W0 m ρ c (Proc.devRef .tc main_arg2) by stretch_keeps hostOps0).trans rfl
theorem W1_arg3 : W1 m ρ c (Proc.devRef .tc main_arg3) = (m ((c : Thread nD τ).loc main_arg3)) :=
  (show StableHlo.after hostOps0 (W0 m ρ c) (Proc.devRef .tc main_arg3) = W0 m ρ c (Proc.devRef .tc main_arg3) by stretch_keeps hostOps0).trans rfl
theorem W2_arg3 : W2 m ρ c (Proc.devRef .tc main_arg3) = (m ((c : Thread nD τ).loc main_arg3)) :=
  (W2_of_ne m ρ c main_arg3 (by decide)).trans (W1_arg3 m ρ c)
theorem W1_arg4 : W1 m ρ c (Proc.devRef .tc main_arg4) = (m ((c : Thread nD τ).loc main_arg4)) :=
  (show StableHlo.after hostOps0 (W0 m ρ c) (Proc.devRef .tc main_arg4) = W0 m ρ c (Proc.devRef .tc main_arg4) by stretch_keeps hostOps0).trans rfl
theorem W2_arg4 : W2 m ρ c (Proc.devRef .tc main_arg4) = (m ((c : Thread nD τ).loc main_arg4)) :=
  (W2_of_ne m ρ c main_arg4 (by decide)).trans (W1_arg4 m ρ c)
theorem W3_arg4 : W3 m ρ c (Proc.devRef .tc main_arg4) = (m ((c : Thread nD τ).loc main_arg4)) :=
  (show StableHlo.after hostOps1 (W2 m ρ c) (Proc.devRef .tc main_arg4) = W2 m ρ c (Proc.devRef .tc main_arg4) by stretch_keeps hostOps1).trans (W2_arg4 m ρ c)
theorem W1_arg5 : W1 m ρ c (Proc.devRef .tc main_arg5) = (m ((c : Thread nD τ).loc main_arg5)) :=
  (show StableHlo.after hostOps0 (W0 m ρ c) (Proc.devRef .tc main_arg5) = W0 m ρ c (Proc.devRef .tc main_arg5) by stretch_keeps hostOps0).trans rfl
theorem W2_arg5 : W2 m ρ c (Proc.devRef .tc main_arg5) = (m ((c : Thread nD τ).loc main_arg5)) :=
  (W2_of_ne m ρ c main_arg5 (by decide)).trans (W1_arg5 m ρ c)
theorem W3_arg5 : W3 m ρ c (Proc.devRef .tc main_arg5) = (m ((c : Thread nD τ).loc main_arg5)) :=
  (show StableHlo.after hostOps1 (W2 m ρ c) (Proc.devRef .tc main_arg5) = W2 m ρ c (Proc.devRef .tc main_arg5) by stretch_keeps hostOps1).trans (W2_arg5 m ρ c)
theorem W4_arg5 : W4 m ρ c (Proc.devRef .tc main_arg5) = (m ((c : Thread nD τ).loc main_arg5)) :=
  (W4_of_ne m ρ c main_arg5 (by decide)).trans (W3_arg5 m ρ c)
theorem W1_arg6 : W1 m ρ c (Proc.devRef .tc main_arg6) = (m ((c : Thread nD τ).loc main_arg6)) :=
  (show StableHlo.after hostOps0 (W0 m ρ c) (Proc.devRef .tc main_arg6) = W0 m ρ c (Proc.devRef .tc main_arg6) by stretch_keeps hostOps0).trans rfl
theorem W2_arg6 : W2 m ρ c (Proc.devRef .tc main_arg6) = (m ((c : Thread nD τ).loc main_arg6)) :=
  (W2_of_ne m ρ c main_arg6 (by decide)).trans (W1_arg6 m ρ c)
theorem W3_arg6 : W3 m ρ c (Proc.devRef .tc main_arg6) = (m ((c : Thread nD τ).loc main_arg6)) :=
  (show StableHlo.after hostOps1 (W2 m ρ c) (Proc.devRef .tc main_arg6) = W2 m ρ c (Proc.devRef .tc main_arg6) by stretch_keeps hostOps1).trans (W2_arg6 m ρ c)
theorem W4_arg6 : W4 m ρ c (Proc.devRef .tc main_arg6) = (m ((c : Thread nD τ).loc main_arg6)) :=
  (W4_of_ne m ρ c main_arg6 (by decide)).trans (W3_arg6 m ρ c)
theorem W5_arg6 : W5 m ρ c (Proc.devRef .tc main_arg6) = (m ((c : Thread nD τ).loc main_arg6)) :=
  (show StableHlo.after hostOps2 (W4 m ρ c) (Proc.devRef .tc main_arg6) = W4 m ρ c (Proc.devRef .tc main_arg6) by stretch_keeps hostOps2).trans (W4_arg6 m ρ c)
theorem W1_arg7 : W1 m ρ c (Proc.devRef .tc main_arg7) = (m ((c : Thread nD τ).loc main_arg7)) :=
  (show StableHlo.after hostOps0 (W0 m ρ c) (Proc.devRef .tc main_arg7) = W0 m ρ c (Proc.devRef .tc main_arg7) by stretch_keeps hostOps0).trans rfl
theorem W2_arg7 : W2 m ρ c (Proc.devRef .tc main_arg7) = (m ((c : Thread nD τ).loc main_arg7)) :=
  (W2_of_ne m ρ c main_arg7 (by decide)).trans (W1_arg7 m ρ c)
theorem W3_arg7 : W3 m ρ c (Proc.devRef .tc main_arg7) = (m ((c : Thread nD τ).loc main_arg7)) :=
  (show StableHlo.after hostOps1 (W2 m ρ c) (Proc.devRef .tc main_arg7) = W2 m ρ c (Proc.devRef .tc main_arg7) by stretch_keeps hostOps1).trans (W2_arg7 m ρ c)
theorem W4_arg7 : W4 m ρ c (Proc.devRef .tc main_arg7) = (m ((c : Thread nD τ).loc main_arg7)) :=
  (W4_of_ne m ρ c main_arg7 (by decide)).trans (W3_arg7 m ρ c)
theorem W1_arg8 : W1 m ρ c (Proc.devRef .tc main_arg8) = (m ((c : Thread nD τ).loc main_arg8)) :=
  (show StableHlo.after hostOps0 (W0 m ρ c) (Proc.devRef .tc main_arg8) = W0 m ρ c (Proc.devRef .tc main_arg8) by stretch_keeps hostOps0).trans rfl
theorem W2_arg8 : W2 m ρ c (Proc.devRef .tc main_arg8) = (m ((c : Thread nD τ).loc main_arg8)) :=
  (W2_of_ne m ρ c main_arg8 (by decide)).trans (W1_arg8 m ρ c)
theorem W3_arg8 : W3 m ρ c (Proc.devRef .tc main_arg8) = (m ((c : Thread nD τ).loc main_arg8)) :=
  (show StableHlo.after hostOps1 (W2 m ρ c) (Proc.devRef .tc main_arg8) = W2 m ρ c (Proc.devRef .tc main_arg8) by stretch_keeps hostOps1).trans (W2_arg8 m ρ c)
theorem W4_arg8 : W4 m ρ c (Proc.devRef .tc main_arg8) = (m ((c : Thread nD τ).loc main_arg8)) :=
  (W4_of_ne m ρ c main_arg8 (by decide)).trans (W3_arg8 m ρ c)
theorem W1_arg9 : W1 m ρ c (Proc.devRef .tc main_arg9) = (m ((c : Thread nD τ).loc main_arg9)) :=
  (show StableHlo.after hostOps0 (W0 m ρ c) (Proc.devRef .tc main_arg9) = W0 m ρ c (Proc.devRef .tc main_arg9) by stretch_keeps hostOps0).trans rfl
theorem W2_arg9 : W2 m ρ c (Proc.devRef .tc main_arg9) = (m ((c : Thread nD τ).loc main_arg9)) :=
  (W2_of_ne m ρ c main_arg9 (by decide)).trans (W1_arg9 m ρ c)
theorem W3_arg9 : W3 m ρ c (Proc.devRef .tc main_arg9) = (m ((c : Thread nD τ).loc main_arg9)) :=
  (show StableHlo.after hostOps1 (W2 m ρ c) (Proc.devRef .tc main_arg9) = W2 m ρ c (Proc.devRef .tc main_arg9) by stretch_keeps hostOps1).trans (W2_arg9 m ρ c)
theorem W4_arg9 : W4 m ρ c (Proc.devRef .tc main_arg9) = (m ((c : Thread nD τ).loc main_arg9)) :=
  (W4_of_ne m ρ c main_arg9 (by decide)).trans (W3_arg9 m ρ c)
theorem W5_arg9 : W5 m ρ c (Proc.devRef .tc main_arg9) = (m ((c : Thread nD τ).loc main_arg9)) :=
  (show StableHlo.after hostOps2 (W4 m ρ c) (Proc.devRef .tc main_arg9) = W4 m ρ c (Proc.devRef .tc main_arg9) by stretch_keeps hostOps2).trans (W4_arg9 m ρ c)
theorem W1_arg10 : W1 m ρ c (Proc.devRef .tc main_arg10) = (m ((c : Thread nD τ).loc main_arg10)) :=
  (show StableHlo.after hostOps0 (W0 m ρ c) (Proc.devRef .tc main_arg10) = W0 m ρ c (Proc.devRef .tc main_arg10) by stretch_keeps hostOps0).trans rfl
theorem W2_arg10 : W2 m ρ c (Proc.devRef .tc main_arg10) = (m ((c : Thread nD τ).loc main_arg10)) :=
  (W2_of_ne m ρ c main_arg10 (by decide)).trans (W1_arg10 m ρ c)
theorem W3_arg10 : W3 m ρ c (Proc.devRef .tc main_arg10) = (m ((c : Thread nD τ).loc main_arg10)) :=
  (show StableHlo.after hostOps1 (W2 m ρ c) (Proc.devRef .tc main_arg10) = W2 m ρ c (Proc.devRef .tc main_arg10) by stretch_keeps hostOps1).trans (W2_arg10 m ρ c)
theorem W4_arg10 : W4 m ρ c (Proc.devRef .tc main_arg10) = (m ((c : Thread nD τ).loc main_arg10)) :=
  (W4_of_ne m ρ c main_arg10 (by decide)).trans (W3_arg10 m ρ c)

/-! ## The edge quantities at the later boundaries -/

theorem W2_src : W2 m ρ c (Proc.devRef .tc main_v5) = src m c :=
  (W2_of_ne m ρ c main_v5 (by decide)).trans (W1_src m ρ c)
theorem W4_src : W4 m ρ c (Proc.devRef .tc main_v5) = src m c :=
  (W4_of_ne m ρ c main_v5 (by decide)).trans ((show StableHlo.after hostOps1 (W2 m ρ c) (Proc.devRef .tc main_v5) = W2 m ρ c (Proc.devRef .tc main_v5) by stretch_keeps hostOps1).trans (W2_src m ρ c))
theorem W2_dst : W2 m ρ c (Proc.devRef .tc main_v6) = dst m c :=
  (W2_of_ne m ρ c main_v6 (by decide)).trans (W1_dst m ρ c)
theorem W4_dst : W4 m ρ c (Proc.devRef .tc main_v6) = dst m c :=
  (W4_of_ne m ρ c main_v6 (by decide)).trans ((show StableHlo.after hostOps1 (W2 m ρ c) (Proc.devRef .tc main_v6) = W2 m ρ c (Proc.devRef .tc main_v6) by stretch_keeps hostOps1).trans (W2_dst m ρ c))
theorem W2_wgt : W2 m ρ c (Proc.devRef .tc main_v28) = wgt m c :=
  (W2_of_ne m ρ c main_v28 (by decide)).trans (W1_wgt m ρ c)
theorem W4_wgt : W4 m ρ c (Proc.devRef .tc main_v28) = wgt m c :=
  (W4_of_ne m ρ c main_v28 (by decide)).trans ((show StableHlo.after hostOps1 (W2 m ρ c) (Proc.devRef .tc main_v28) = W2 m ρ c (Proc.devRef .tc main_v28) by stretch_keeps hostOps1).trans (W2_wgt m ρ c))

/-! ## The layers, boundary by boundary -/

/-- After region 0: the first feature transform. -/
theorem W2_h1 : W2 m ρ c (Proc.devRef .tc main_v29) = (h1 m c) := by
  refine (W2_arr m ρ c 2).trans ?_
  rw [Region0.value (V1 m ρ) c]
  show dense (W1 m ρ c (Proc.devRef .tc main_arg0)) (W1 m ρ c (Proc.devRef .tc main_arg2)) = _
  rw [W1_arg0, W1_arg2]

/-- After the second stretch: the first layer's aggregated messages. -/
theorem W3_m1 : W3 m ρ c (Proc.devRef .tc main_v42) = (m1 m c) := by
  have e : W3 m ρ c (Proc.devRef .tc main_v42) = aggregate (W2 m ρ c (Proc.devRef .tc main_v5)) (W2 m ρ c (Proc.devRef .tc main_v6))
      (W2 m ρ c (Proc.devRef .tc main_v28)) (W2 m ρ c (Proc.devRef .tc main_v29)) := by
    show StableHlo.after hostOps1 (W2 m ρ c) (Proc.devRef .tc main_v42) = _
    after_results_simp <;> rfl
  rw [e, W2_src, W2_dst, W2_wgt, W2_h1]

theorem W3_b1 : W3 m ρ c (Proc.devRef .tc main_v43) = rowOf (m ((c : Thread nD τ).loc main_arg3)) := by
  have e : W3 m ρ c (Proc.devRef .tc main_v43) = shapeCast S1x128 (W2 m ρ c (Proc.devRef .tc main_arg3)) shapeCasts_S128_S1x128 := by
    show StableHlo.after hostOps1 (W2 m ρ c) (Proc.devRef .tc main_v43) = _
    after_results_simp <;> rfl
  rw [e, W2_arg3]
  exact ReshapeVec.reshapeRow_eq_broadcastInDim (b := 128) _ _ _

/-- After region 1: the second feature transform of the rectified first layer. -/
theorem W4_h2 : W4 m ρ c (Proc.devRef .tc main_v44) = (h2 m c) := by
  refine (W4_arr m ρ c 3).trans ?_
  rw [Region1.value (V3 m ρ) c]
  show dense (relu (addRow (W3 m ρ c (Proc.devRef .tc main_v42)) (W3 m ρ c (Proc.devRef .tc main_v43)))) (W3 m ρ c (Proc.devRef .tc main_arg4)) = _
  rw [W3_m1, W3_b1, W3_arg4]

/-- After the third stretch: the second layer's aggregated messages. -/
theorem W5_m2 : W5 m ρ c (Proc.devRef .tc main_v57) = (m2 m c) := by
  have e : W5 m ρ c (Proc.devRef .tc main_v57) = aggregate (W4 m ρ c (Proc.devRef .tc main_v5)) (W4 m ρ c (Proc.devRef .tc main_v6))
      (W4 m ρ c (Proc.devRef .tc main_v28)) (W4 m ρ c (Proc.devRef .tc main_v44)) := by
    show StableHlo.after hostOps2 (W4 m ρ c) (Proc.devRef .tc main_v57) = _
    after_results_simp <;> rfl
  rw [e, W4_src, W4_dst, W4_wgt, W4_h2]

theorem W5_b2 : W5 m ρ c (Proc.devRef .tc main_v58) = rowOf (m ((c : Thread nD τ).loc main_arg5)) := by
  have e : W5 m ρ c (Proc.devRef .tc main_v58) = shapeCast S1x128 (W4 m ρ c (Proc.devRef .tc main_arg5)) shapeCasts_S128_S1x128 := by
    show StableHlo.after hostOps2 (W4 m ρ c) (Proc.devRef .tc main_v58) = _
    after_results_simp <;> rfl
  rw [e, W4_arg5]
  exact ReshapeVec.reshapeRow_eq_broadcastInDim (b := 128) _ _ _

theorem W5_bp1 : W5 m ρ c (Proc.devRef .tc main_v59) = rowOf (m ((c : Thread nD τ).loc main_arg7)) := by
  have e : W5 m ρ c (Proc.devRef .tc main_v59) = shapeCast S1x128 (W4 m ρ c (Proc.devRef .tc main_arg7)) shapeCasts_S128_S1x128 := by
    show StableHlo.after hostOps2 (W4 m ρ c) (Proc.devRef .tc main_v59) = _
    after_results_simp <;> rfl
  rw [e, W4_arg7]
  exact ReshapeVec.reshapeRow_eq_broadcastInDim (b := 128) _ _ _

theorem W5_bp2 : W5 m ρ c (Proc.devRef .tc main_v60) = rowOf (m ((c : Thread nD τ).loc main_arg10)) := by
  have e : W5 m ρ c (Proc.devRef .tc main_v60) = shapeCast S1x128 (W4 m ρ c (Proc.devRef .tc main_arg10)) shapeCasts_S128_S1x128 := by
    show StableHlo.after hostOps2 (W4 m ρ c) (Proc.devRef .tc main_v60) = _
    after_results_simp <;> rfl
  rw [e, W4_arg10]
  exact ReshapeVec.reshapeRow_eq_broadcastInDim (b := 128) _ _ _

/-- The rectifier's slope as the [1, 1] array the last region reads. -/
theorem W5_slope : W5 m ρ c (Proc.devRef .tc main_v61) = shapeCast S1x1 (m ((c : Thread nD τ).loc main_arg8)) shapeCasts_S_S1x1 := by
  have e : W5 m ρ c (Proc.devRef .tc main_v61) = shapeCast S1x1 (W4 m ρ c (Proc.devRef .tc main_arg8)) shapeCasts_S_S1x1 := by
    show StableHlo.after hostOps2 (W4 m ρ c) (Proc.devRef .tc main_v61) = _
    after_results_simp <;> rfl
  rw [e, W4_arg8]

/-- A scalar viewed as a [1, 1] array and read back at its one entry is the scalar. -/
theorem slope_back (a : FVec Ideal S_ .f32) : Region2.scalarOf (shapeCast S1x1 a shapeCasts_S_S1x1) = a := by
  funext i
  show shapeCast S1x1 a shapeCasts_S_S1x1 (ix2 (0 : Fin 1) (0 : Fin 1)) = a i
  exact shapeCast_apply a shapeCasts_S_S1x1 (ix2 (0 : Fin 1) (0 : Fin 1)) i rfl

/-- After region 2: the first result. -/
theorem W6_z : W6 m ρ c (Proc.devRef .tc main_v62_0) = (zOut m c) := by
  refine (W6_arr m ρ c 7).trans ?_
  rw [Region2.value_z (V5 m ρ) c]
  show relu (addRow (W5 m ρ c (Proc.devRef .tc main_v57)) (W5 m ρ c (Proc.devRef .tc main_v58))) = _
  rw [W5_m2, W5_b2]

/-- After region 2: the second result. -/
theorem W6_p : W6 m ρ c (Proc.devRef .tc main_v62_1) = (pOut m c) := by
  refine (W6_arr m ρ c 8).trans ?_
  rw [Region2.value_p (V5 m ρ) c]
  show addRow (dense (prelu (Region2.scalarOf (W5 m ρ c (Proc.devRef .tc main_v61))) (addRow (dense (relu (addRow (W5 m ρ c (Proc.devRef .tc main_v57))
      (W5 m ρ c (Proc.devRef .tc main_v58)))) (W5 m ρ c (Proc.devRef .tc main_arg6))) (W5 m ρ c (Proc.devRef .tc main_v59)))) (W5 m ρ c (Proc.devRef .tc main_arg9)))
      (W5 m ρ c (Proc.devRef .tc main_v60)) = _
  rw [W5_m2, W5_b2, W5_arg6, W5_bp1, W5_slope, slope_back, W5_arg9, W5_bp2]

/-! ## The reference's stages are the same layer functions -/

theorem ref_z : Cert.ReferenceIdeal.Read.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = (zOut m c) := rfl

theorem ref_p : Cert.ReferenceIdeal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) = (pOut m c) := rfl

/-! ## The kernel's results are the reference's stages of the same arguments -/

theorem z_value : W6 m ρ c (Proc.devRef .tc main_v62_0) = Cert.ReferenceIdeal.Read.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W6_z m ρ c).trans (ref_z m c).symm

theorem p_value : W6 m ρ c (Proc.devRef .tc main_v62_1) = Cert.ReferenceIdeal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W6_p m ρ c).trans (ref_p m c).symm

end Cert.KernelIdeal.Chain

namespace Cert.KernelIdeal.Chain

open Idealize.ShloMosaic Idealize.ShloMosaic.TcCoe Idealize.SL.Sem
open Cert.KernelIdeal Cert.KernelIdeal.Gen

variable (m : (ℓ : Loc nD τ sig) → Buf (Elt Ideal) ℓ)

/-! ## The kernel's run, its results as the reference's stages of its arguments -/

/-- Every weakly fair execution of the kernel's program terminates without a fault, with the first result at the
    reference's stage for z of the arguments, the second at its stage for p, and the arguments as launched. -/
theorem run (ρ : Dev nD → PrngReg) : θ_run defs (onTc (τ := τ) (main (F := Ideal))) ⟨m, fun _ => 0, ρ⟩ (fun r => ∀ c : Dev nD,
      r.2.mem ((c.tc : Thread nD τ).loc main_v62_0) = Cert.ReferenceIdeal.Read.val_main_v89 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v62_1) = Cert.ReferenceIdeal.Read.val_main_v102 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (z_value m ρ c), (h c).2.1.trans (p_value m ρ c), (h c).2.2⟩)
    (Cert.KernelIdeal.Run.run (F := Ideal) m ρ)

end Cert.KernelIdeal.Chain

end
-- ==== Proof.lean ====
/-
  The certificate of a two-layer graph convolution network with a projection head: the kernel's program (three
  row-tiled regions — X · W1; relu (M1 + b1) · W2; relu (M2 + b2) with the head prelu (z · Wp1 + bp1) · Wp2 + bp2 —
  among host stretches that build the edge weights and aggregate messages along the edges) against the reference's
  plain host program.

  On the extended reals the two programs compute the same layer functions of the arguments, operation by operation:
  a change of float format is the identity, a matmul into the zero accumulator and a dot_general are the same sum,
  the tiles of a region fit together into the whole-array function, and the gathers and scatter-adds are the same
  host operations applied to equal operands.  No law of arithmetic beyond that is used, so the precondition (finite
  inputs) is never opened.

  The three frames are the generated frame certificates (the reference's from its generated run); the idealization
  rewrote nothing; the value claim pairs the kernel's run, its two results read through the program's boundaries
  (Proof/KernelRun.lean, Proof/Chain.lean), with the reference's generated run, its results read as its stages.
-/
import proofs.«144005_j54065048322391_1_alg».proof.Defs
import proofs.«144005_j54065048322391_1_alg».proof.Proof.Gen.Kernel
import proofs.«144005_j54065048322391_1_alg».proof.Proof.Gen.Kernel.Frame
import proofs.«144005_j54065048322391_1_alg».proof.Proof.Gen.KernelIdeal
import proofs.«144005_j54065048322391_1_alg».proof.Proof.Gen.KernelIdeal.Frame
import proofs.«144005_j54065048322391_1_alg».proof.Proof.Gen.ReferenceIdeal
import proofs.«144005_j54065048322391_1_alg».proof.Proof.Gen.ReferenceIdeal.Run
import proofs.«144005_j54065048322391_1_alg».proof.Proof.Gen.ReferenceIdeal.Read
import proofs.«144005_j54065048322391_1_alg».proof.Proof.Gen.Pre_finite_inputs
import proofs.«144005_j54065048322391_1_alg».proof.Proof.Chain
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the arguments both programs end with each result at the reference's stage of the
    kernel's arguments: the kernel by its run read through its boundaries, the reference by its run, its results'
    terms being its stages, at arguments that agree with the kernel's. -/
theorem algebraic : Cert.algebraic_KernelIdeal_ReferenceIdeal := by
  intro m ρ m' ρ' _ hagree
  refine ⟨_, _, Cert.KernelIdeal.Chain.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, -⟩ := hagree c
    rw [Cert.ReferenceIdeal.Read.val_main_v89_eq, h0, h1, h2, h3, h4, h5]
  · obtain ⟨h0, h1, h2, h3, h4, h5, h6, h7, h8, h9, h10⟩ := hagree c
    rw [Cert.ReferenceIdeal.Read.val_main_v102_eq, h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
